-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S_ : Shape := ⟨0, ![]⟩

class Facts : Prop where
  bcast_S_S1024x1000x16 : S_.BroadcastsInDim S1024x1000x16 (![] : Fin 0 → Fin S1024x1000x16.rank)
  reducesTo_S1024x1000x16_S_d0_1_2 : S1024x1000x16.ReducesTo [0, 1, 2] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S1000x16 : S_.BroadcastsInDim S1000x16 (![] : Fin 0 → Fin S1000x16.rank)
  reducesTo_S1000x16_S_d0_1 : S1000x16.ReducesTo [0, 1] S_
  bcast_S_S100000x16 : S_.BroadcastsInDim S100000x16 (![] : Fin 0 → Fin S100000x16.rank)
  reducesTo_S100000x16_S_d0_1 : S100000x16.ReducesTo [0, 1] S_
  bcast_S_S1000x1 : S_.BroadcastsInDim S1000x1 (![] : Fin 0 → Fin S1000x1.rank)
  reducesTo_S1000x1_S_d0_1 : S1000x1.ReducesTo [0, 1] S_

variable [Facts]

def fn_part1 {F : FTy → Type} [FloatOps F] (main_arg5 : FVec F S100000x16 .f32) (main_arg6 : FVec F S1000x1 .f32) (main_v13 : IVec S_ 1) (main_v16 : IVec S1000x16 1) : IVec S_ 1 :=
  let main_c_5 : IVec S_ 1 := constantI S_ 1 1#1
  let main_v17 : IVec S_ 1 := (fun x v => Host.reduce IntOp.andi x v reducesTo_S1000x16_S_d0_1 h_S_) main_v16 main_c_5
  let main_v18 : IVec S_ 1 := andi main_v13 main_v17
  let main_v19 : FVec F S100000x16 .f32 := Host.absf main_arg5
  let main_cst_6 : FVec F S_ .f32 := constant S_ .f32 0x7F800000#32
  let main_v20 : FVec F S100000x16 .f32 := broadcastInDim S100000x16 ![] bcast_S_S100000x16 main_cst_6
  let main_v21 : IVec S100000x16 1 := cmpf .olt main_v19 main_v20
  let main_c_7 : IVec S_ 1 := constantI S_ 1 1#1
  let main_v22 : IVec S_ 1 := (fun x v => Host.reduce IntOp.andi x v reducesTo_S100000x16_S_d0_1 h_S_) main_v21 main_c_7
  let main_v23 : IVec S_ 1 := andi main_v18 main_v22
  let main_v24 : FVec F S1000x1 .f32 := Host.absf main_arg6
  let main_cst_8 : FVec F S_ .f32 := constant S_ .f32 0x7F800000#32
  let main_v25 : FVec F S1000x1 .f32 := broadcastInDim S1000x1 ![] bcast_S_S1000x1 main_cst_8
  let main_v26 : IVec S1000x1 1 := cmpf .olt main_v24 main_v25
  let main_c_9 : IVec S_ 1 := constantI S_ 1 1#1
  let main_v27 : IVec S_ 1 := (fun x v => Host.reduce IntOp.andi x v reducesTo_S1000x1_S_d0_1 h_S_) main_v26 main_c_9
  let main_v28 : IVec S_ 1 := andi main_v23 main_v27
  main_v28

def fn {F : FTy → Type} [FloatOps F] (main_arg0 : FVec F S1024x1000x16 .f32) (main_arg1 : FVec F S1024x1000x16 .f32) (main_arg2 : FVec F S1024x100000 .f32) (main_arg3 : IVec S1024x1000 1) (main_arg4 : FVec F S1000x16 .f32) (main_arg5 : FVec F S100000x16 .f32) (main_arg6 : FVec F S1000x1 .f32) : IVec S_ 1 :=
  let main_v0 : FVec F S1024x1000x16 .f32 := Host.absf main_arg0
  let main_cst : FVec F S_ .f32 := constant S_ .f32 0x7F800000#32
  let main_v1 : FVec F S1024x1000x16 .f32 := broadcastInDim S1024x1000x16 ![] bcast_S_S1024x1000x16 main_cst
  let main_v2 : IVec S1024x1000x16 1 := cmpf .olt main_v0 main_v1
  let main_c : IVec S_ 1 := constantI S_ 1 1#1
  let main_v3 : IVec S_ 1 := (fun x v => Host.reduce IntOp.andi x v reducesTo_S1024x1000x16_S_d0_1_2 h_S_) main_v2 main_c
  let main_v4 : FVec F S1024x1000x16 .f32 := Host.absf main_arg1
  let main_cst_0 : FVec F S_ .f32 := constant S_ .f32 0x7F800000#32
  let main_v5 : FVec F S1024x1000x16 .f32 := broadcastInDim S1024x1000x16 ![] bcast_S_S1024x1000x16 main_cst_0
  let main_v6 : IVec S1024x1000x16 1 := cmpf .olt main_v4 main_v5
  let main_c_1 : IVec S_ 1 := constantI S_ 1 1#1
  let main_v7 : IVec S_ 1 := (fun x v => Host.reduce IntOp.andi x v reducesTo_S1024x1000x16_S_d0_1_2 h_S_) main_v6 main_c_1
  let main_v8 : IVec S_ 1 := andi main_v3 main_v7
  let main_v9 : FVec F S1024x100000 .f32 := Host.absf main_arg2
  let main_cst_2 : FVec F S_ .f32 := constant S_ .f32 0x7F800000#32
  let main_v10 : FVec F S1024x100000 .f32 := broadcastInDim S1024x100000 ![] bcast_S_S1024x100000 main_cst_2
  let main_v11 : IVec S1024x100000 1 := cmpf .olt main_v9 main_v10
  let main_c_3 : IVec S_ 1 := constantI S_ 1 1#1
  let main_v12 : IVec S_ 1 := (fun x v => Host.reduce IntOp.andi x v reducesTo_S1024x100000_S_d0_1 h_S_) main_v11 main_c_3
  let main_v13 : IVec S_ 1 := andi main_v8 main_v12
  let main_v14 : FVec F S1000x16 .f32 := Host.absf main_arg4
  let main_cst_4 : FVec F S_ .f32 := constant S_ .f32 0x7F800000#32
  let main_v15 : FVec F S1000x16 .f32 := broadcastInDim S1000x16 ![] bcast_S_S1000x16 main_cst_4
  let main_v16 : IVec S1000x16 1 := cmpf .olt main_v14 main_v15
  fn_part1 (F := F) main_arg5 main_arg6 main_v13 main_v16
-- ==== Kernel.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S100000x1024 : Shape := ⟨2, ![100000, 1024]⟩
abbrev S1000x16x1024 : Shape := ⟨3, ![1000, 16, 1024]⟩
abbrev S1000x1024 : Shape := ⟨2, ![1000, 1024]⟩
abbrev S1000x16x1 : Shape := ⟨3, ![1000, 16, 1]⟩
abbrev S1000x1x1 : Shape := ⟨3, ![1000, 1, 1]⟩
abbrev S16x100000 : Shape := ⟨2, ![16, 100000]⟩
abbrev S16x25x4000 : Shape := ⟨3, ![16, 25, 4000]⟩
abbrev S25x16x4000 : Shape := ⟨3, ![25, 16, 4000]⟩
abbrev S16x1024 : Shape := ⟨2, ![16, 1024]⟩
abbrev S1x16x4000 : Shape := ⟨3, ![1, 16, 4000]⟩
abbrev S4000x1024 : Shape := ⟨2, ![4000, 1024]⟩
abbrev S16x4000 : Shape := ⟨2, ![16, 4000]⟩
abbrev S40x16x1024 : Shape := ⟨3, ![40, 16, 1024]⟩
abbrev S40x16x1 : Shape := ⟨3, ![40, 16, 1]⟩
abbrev S40x1x1 : Shape := ⟨3, ![40, 1, 1]⟩
abbrev S40x1024 : Shape := ⟨2, ![40, 1024]⟩
abbrev S1x16x1024 : Shape := ⟨3, ![1, 16, 1024]⟩
abbrev S40x1 : Shape := ⟨2, ![40, 1]⟩

abbrev nBuf : Space → Nat
  | .hbm => 20
  | .vmem => 18
  | .smem => 0
  | _ => 0

abbrev bufTy : (tb : Table) → Fin (tcTables nBuf tb) → BufTy
  | .hbm, ⟨0, _⟩ => ⟨S1024x1000x16, .f32⟩
  | .hbm, ⟨1, _⟩ => ⟨S1024x1000x16, .f32⟩
  | .hbm, ⟨2, _⟩ => ⟨S1024x100000, .f32⟩
  | .hbm, ⟨3, _⟩ => ⟨S1024x1000, .i1⟩
  | .hbm, ⟨4, _⟩ => ⟨S1000x16, .f32⟩
  | .hbm, ⟨5, _⟩ => ⟨S100000x16, .f32⟩
  | .hbm, ⟨6, _⟩ => ⟨S1000x1, .f32⟩
  | .hbm, ⟨7, _⟩ => ⟨S100000x1024, .f32⟩
  | .hbm, ⟨8, _⟩ => ⟨S1000x16x1024, .f32⟩
  | .hbm, ⟨9, _⟩ => ⟨S1000x16x1024, .f32⟩
  | .hbm, ⟨10, _⟩ => ⟨S1000x1024, .i1⟩
  | .hbm, ⟨11, _⟩ => ⟨S1000x16x1, .f32⟩
  | .hbm, ⟨12, _⟩ => ⟨S1000x1x1, .f32⟩
  | .hbm, ⟨13, _⟩ => ⟨S16x100000, .f32⟩
  | .hbm, ⟨14, _⟩ => ⟨S16x25x4000, .f32⟩
  | .hbm, ⟨15, _⟩ => ⟨S25x16x4000, .f32⟩
  | .hbm, ⟨16, _⟩ => ⟨S16x1024, .f32⟩
  | .hbm, ⟨17, _⟩ => ⟨S1000x1024, .i32⟩
  | .hbm, ⟨18, _⟩ => ⟨S1000x1024, .f32⟩
  | .hbm, ⟨19, _⟩ => ⟨S1024x1000, .f32⟩
  | .local _ .vmem, ⟨0, _⟩ => ⟨S1x16x4000, .f32⟩
  | .local _ .vmem, ⟨1, _⟩ => ⟨S1x16x4000, .f32⟩
  | .local _ .vmem, ⟨2, _⟩ => ⟨S4000x1024, .f32⟩
  | .local _ .vmem, ⟨3, _⟩ => ⟨S4000x1024, .f32⟩
  | .local _ .vmem, ⟨4, _⟩ => ⟨S16x1024, .f32⟩
  | .local _ .vmem, ⟨5, _⟩ => ⟨S40x16x1024, .f32⟩
  | .local _ .vmem, ⟨6, _⟩ => ⟨S40x16x1024, .f32⟩
  | .local _ .vmem, ⟨7, _⟩ => ⟨S40x16x1024, .f32⟩
  | .local _ .vmem, ⟨8, _⟩ => ⟨S40x16x1024, .f32⟩
  | .local _ .vmem, ⟨9, _⟩ => ⟨S40x16x1, .f32⟩
  | .local _ .vmem, ⟨10, _⟩ => ⟨S40x16x1, .f32⟩
  | .local _ .vmem, ⟨11, _⟩ => ⟨S16x1024, .f32⟩
  | .local _ .vmem, ⟨12, _⟩ => ⟨S40x1x1, .f32⟩
  | .local _ .vmem, ⟨13, _⟩ => ⟨S40x1x1, .f32⟩
  | .local _ .vmem, ⟨14, _⟩ => ⟨S40x1024, .i32⟩
  | .local _ .vmem, ⟨15, _⟩ => ⟨S40x1024, .i32⟩
  | .local _ .vmem, ⟨16, _⟩ => ⟨S40x1024, .f32⟩
  | .local _ .vmem, ⟨17, _⟩ => ⟨S40x1024, .f32⟩
  | _, _ => ⟨S1024x1000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg0 : BitVec 32 := BitVec.ofNat 32 (i 0).val
  let c0_i32_5 : BitVec 32 := 0#32
  let v8 : BitVec 1 := Scalar.cmpi .sgt arg0 c0_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S40x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S40x16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S40x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S40x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S40x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S1024x100000_S100000x1024_1_0 : S1024x100000.Transposes [1, 0] S100000x1024
  transposes_S1024x1000x16_S1000x16x1024_1_2_0 : S1024x1000x16.Transposes [1, 2, 0] S1000x16x1024
  transposes_S1024x1000_S1000x1024_1_0 : S1024x1000.Transposes [1, 0] S1000x1024
  bcast_S1000x16_S1000x16x1_0_1 : S1000x16.BroadcastsInDim S1000x16x1 (![0, 1] : Fin 2 → Fin S1000x16x1.rank)
  bcast_S1000x1_S1000x1x1_0_1 : S1000x1.BroadcastsInDim S1000x1x1 (![0, 1] : Fin 2 → Fin S1000x1x1.rank)
  transposes_S100000x16_S16x100000_1_0 : S100000x16.Transposes [1, 0] S16x100000
  shapeCasts_S16x100000_S16x25x4000 : S16x100000.ShapeCasts S16x25x4000
  transposes_S16x25x4000_S25x16x4000_1_0_2 : S16x25x4000.Transposes [1, 0, 2] S25x16x4000
  inb_S1x16x4000_S1x16x4000_0_0_0 : ∀ a, (![0, 0, 0] : Fin 3 → Nat) a + S1x16x4000.size a ≤ S1x16x4000.size a
  h_S1x16x4000 : 0 < S1x16x4000.numel
  shapeCasts_S1x16x4000_S16x4000 : S1x16x4000.ShapeCasts S16x4000
  inb_S4000x1024_S4000x1024_0_0 : ∀ a, (![0, 0] : Fin 2 → Nat) a + S4000x1024.size a ≤ S4000x1024.size a
  h_S4000x1024 : 0 < S4000x1024.numel
  shapeCasts_S4000x1024_S4000x1024 : S4000x1024.ShapeCasts S4000x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  natLt_1_32 : 1 < 32
  inb_S40x16x1024_S40x16x1024_0_0_0 : ∀ a, (![0, 0, 0] : Fin 3 → Nat) a + S40x16x1024.size a ≤ S40x16x1024.size a
  h_S40x16x1024 : 0 < S40x16x1024.numel
  shapeCasts_S40x16x1024_S40x16x1024 : S40x16x1024.ShapeCasts S40x16x1024
  inb_S40x16x1_S40x16x1_0_0_0 : ∀ a, (![0, 0, 0] : Fin 3 → Nat) a + S40x16x1.size a ≤ S40x16x1.size a
  h_S40x16x1 : 0 < S40x16x1.numel
  shapeCasts_S40x16x1_S40x16x1 : S40x16x1.ShapeCasts S40x16x1
  broadcasts_S40x16x1_S40x16x1024 : S40x16x1.Broadcasts S40x16x1024
  shapeCasts_S16x1024_S1x16x1024 : S16x1024.ShapeCasts S1x16x1024
  broadcasts_S1x16x1024_S40x16x1024 : S1x16x1024.Broadcasts S40x16x1024
  reduces_S40x16x1024_S40x1024 : S40x16x1024.Reduces [1] S40x1024
  inb_S40x1x1_S40x1x1_0_0_0 : ∀ a, (![0, 0, 0] : Fin 3 → Nat) a + S40x1x1.size a ≤ S40x1x1.size a
  h_S40x1x1 : 0 < S40x1x1.numel
  shapeCasts_S40x1x1_S40x1x1 : S40x1x1.ShapeCasts S40x1x1
  shapeCasts_S40x1x1_S40x1 : S40x1x1.ShapeCasts S40x1
  broadcasts_S40x1_S40x1024 : S40x1.Broadcasts S40x1024
  inb_S40x1024_S40x1024_0_0 : ∀ a, (![0, 0] : Fin 2 → Nat) a + S40x1024.size a ≤ S40x1024.size a
  h_S40x1024 : 0 < S40x1024.numel
  shapeCasts_S40x1024_S40x1024 : S40x1024.ShapeCasts S40x1024
  transposes_S1000x1024_S1024x1000_1_0 : S1000x1024.Transposes [1, 0] S1024x1000
  dot_S16x4000_S4000x1024_S16x1024_1_0_0_1_n_n_wf : DotDims.WF S16x4000 S4000x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x4000.size a ≤ S25x16x4000.size a
  hwx0_0 : ∀ i : grid0.Coords, EltTy.bits .f32 = 32 ∨ (Rect.block (s := S25x16x4000) S1x16x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1024.size a ≤ S100000x1024.size a
  hwx0_1 : ∀ i : grid0.Coords, EltTy.bits .f32 = 32 ∨ (Rect.block (s := S100000x1024) S4000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S40x16x1024.size a ≤ S1000x16x1024.size a
  hwx1_0 : ∀ i : grid1.Coords, EltTy.bits .f32 = 32 ∨ (Rect.block (s := S1000x16x1024) S40x16x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S40x16x1024.size a ≤ S1000x16x1024.size a
  hwx1_1 : ∀ i : grid1.Coords, EltTy.bits .f32 = 32 ∨ (Rect.block (s := S1000x16x1024) S40x16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S40x16x1.size a ≤ S1000x16x1.size a
  hwx1_2 : ∀ i : grid1.Coords, EltTy.bits .f32 = 32 ∨ (Rect.block (s := S1000x16x1) S40x16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x1024.size a
  hwx1_3 : ∀ i : grid1.Coords, EltTy.bits .f32 = 32 ∨ (Rect.block (s := S16x1024) S16x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S40x1x1.size a ≤ S1000x1x1.size a
  hwx1_4 : ∀ i : grid1.Coords, EltTy.bits .f32 = 32 ∨ (Rect.block (s := S1000x1x1) S40x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S40x1024.size a ≤ S1000x1024.size a
  hwx1_5 : ∀ i : grid1.Coords, EltTy.bits .i32 = 32 ∨ (Rect.block (s := S1000x1024) S40x1024.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S40x1024.size a ≤ S1000x1024.size a
  hwx1_6 : ∀ i : grid1.Coords, EltTy.bits .f32 = 32 ∨ (Rect.block (s := S1000x1024) S40x1024.size (cc1_transform_6 i) (hinb1_6 i)).WholeWords (EltTy.packing .f32)

variable [Facts₀]

def dot_S16x4000_S4000x1024_S16x1024_1_0_0_1_n_n : DotDims S16x4000 S4000x1024 S16x1024 where
  lhsContracting := [1]
  rhsContracting := [0]
  lhsNonContracting := [0]
  rhsNonContracting := [1]
  lhsBatch := []
  rhsBatch := []
  wf := dot_S16x4000_S4000x1024_S16x1024_1_0_0_1_n_n_wf

abbrev win0_0 : Pipeline.Window sig grid0 :=
  Pipeline.Window.ofSpec (Memref.whole main_v8) S1x16x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v1) S40x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S40x16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S40x16x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S40x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S40x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S40x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x1000x16 : Shape := ⟨3, ![1024, 1000, 16]⟩
abbrev S1024x100000 : Shape := ⟨2, ![1024, 100000]⟩
abbrev S1024x1000 : Shape := ⟨2, ![1024, 1000]⟩
abbrev S1000x16 : Shape := ⟨2, ![1000, 16]⟩
abbrev S100000x16 : Shape := ⟨2, ![100000, 16]⟩
abbrev S1000x1 : Shape := ⟨2, ![1000, 1]⟩
abbrev S_ : Shape := ⟨0, ![]⟩
abbrev S1x1000x16 : Shape := ⟨3, ![1, 1000, 16]⟩
abbrev S1024x16 : Shape := ⟨2, ![1024, 16]⟩
abbrev S1024x1x16 : Shape := ⟨3, ![1024, 1, 16]⟩
abbrev S1024x1000x1 : Shape := ⟨3, ![1024, 1000, 1]⟩
abbrev S1x1000x1 : Shape := ⟨3, ![1, 1000, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x1000x16, .f32⟩
  | .hbm, ⟨1, _⟩ => ⟨S1024x1000x16, .f32⟩
  | .hbm, ⟨2, _⟩ => ⟨S1024x100000, .f32⟩
  | .hbm, ⟨3, _⟩ => ⟨S1024x1000, .i1⟩
  | .hbm, ⟨4, _⟩ => ⟨S1000x16, .f32⟩
  | .hbm, ⟨5, _⟩ => ⟨S100000x16, .f32⟩
  | .hbm, ⟨6, _⟩ => ⟨S1000x1, .f32⟩
  | .hbm, ⟨7, _⟩ => ⟨S_, .f32⟩
  | .hbm, ⟨8, _⟩ => ⟨S1024x1000, .f32⟩
  | .hbm, ⟨9, _⟩ => ⟨S1x1000x16, .f32⟩
  | .hbm, ⟨10, _⟩ => ⟨S1024x1000x16, .f32⟩
  | .hbm, ⟨11, _⟩ => ⟨S1024x1000x16, .f32⟩
  | .hbm, ⟨12, _⟩ => ⟨S_, .f32⟩
  | .hbm, ⟨13, _⟩ => ⟨S1024x1000, .f32⟩
  | .hbm, ⟨14, _⟩ => ⟨S1024x1000, .f32⟩
  | .hbm, ⟨15, _⟩ => ⟨S1024x16, .f32⟩
  | .hbm, ⟨16, _⟩ => ⟨S1024x1x16, .f32⟩
  | .hbm, ⟨17, _⟩ => ⟨S1024x1000x16, .f32⟩
  | .hbm, ⟨18, _⟩ => ⟨S1024x1000x16, .f32⟩
  | .hbm, ⟨19, _⟩ => ⟨S_, .f32⟩
  | .hbm, ⟨20, _⟩ => ⟨S1024x1000, .f32⟩
  | .hbm, ⟨21, _⟩ => ⟨S1024x1000, .f32⟩
  | .hbm, ⟨22, _⟩ => ⟨S_, .f32⟩
  | .hbm, ⟨23, _⟩ => ⟨S1024x1000x1, .f32⟩
  | .hbm, ⟨24, _⟩ => ⟨S1x1000x1, .f32⟩
  | .hbm, ⟨25, _⟩ => ⟨S1024x1000x1, .f32⟩
  | .hbm, ⟨26, _⟩ => ⟨S1024x1000x1, .f32⟩
  | .hbm, ⟨27, _⟩ => ⟨S_, .f32⟩
  | .hbm, ⟨28, _⟩ => ⟨S1024x1000, .f32⟩
  | .hbm, ⟨29, _⟩ => ⟨S1024x1000, .f32⟩
  | .hbm, ⟨30, _⟩ => ⟨S_, .f32⟩
  | .hbm, ⟨31, _⟩ => ⟨S1024x1000, .f32⟩
  | .hbm, ⟨32, _⟩ => ⟨S1024x1000, .f32⟩
  | _, _ => ⟨S1024x1000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S1024x1000 : S_.BroadcastsInDim S1024x1000 (![] : Fin 0 → Fin S1024x1000.rank)
  bcast_S1000x16_S1x1000x16_1_2 : S1000x16.BroadcastsInDim S1x1000x16 (![1, 2] : Fin 2 → Fin S1x1000x16.rank)
  bcast_S1x1000x16_S1024x1000x16_0_1_2 : S1x1000x16.BroadcastsInDim S1024x1000x16 (![0, 1, 2] : Fin 3 → Fin S1024x1000x16.rank)
  reducesTo_S1024x1000x16_S1024x1000_d2 : S1024x1000x16.ReducesTo [2] S1024x1000
  h_S_ : 0 < S_.numel
  bcast_S1024x16_S1024x1x16_0_2 : S1024x16.BroadcastsInDim S1024x1x16 (![0, 2] : Fin 2 → Fin S1024x1x16.rank)
  bcast_S1024x1x16_S1024x1000x16_0_1_2 : S1024x1x16.BroadcastsInDim S1024x1000x16 (![0, 1, 2] : Fin 3 → Fin S1024x1000x16.rank)
  bcast_S_S1024x1000x1 : S_.BroadcastsInDim S1024x1000x1 (![] : Fin 0 → Fin S1024x1000x1.rank)
  bcast_S1000x1_S1x1000x1_1_2 : S1000x1.BroadcastsInDim S1x1000x1 (![1, 2] : Fin 2 → Fin S1x1000x1.rank)
  bcast_S1x1000x1_S1024x1000x1_0_1_2 : S1x1000x1.BroadcastsInDim S1024x1000x1 (![0, 1, 2] : Fin 3 → Fin S1024x1000x1.rank)
  reducesTo_S1024x1000x1_S1024x1000_d2 : S1024x1000x1.ReducesTo [2] S1024x1000
  dot_S1024x100000_S100000x16_S1024x16_1_0_0_1_n_n_wf : DotDims.WF S1024x100000 S100000x16 S1024x16 [1] [0] [0] [1] [] []

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.K.Runs.lean ====
/-
  What the two kernels' runs are stated over.  The first kernel accumulates a [16,1024] block over 25 grid points:
  at point 0 it stores the product of its two input blocks, at every later point it adds the product to what the
  block holds.  The second kernel is one whole-block store per point.  Here: each window's block at a point as a
  read of the array the region finds, the fact that an input's staging buffer holds that block whether fetched at
  the point or not, and the two conditions of the first kernel decided over the grid.
-/
import proofs.«105989_g88974542504030_cont_9to1c4b_294_19_alg».proof.Proof.Gen.Kernel.Launch
import proofs.«105989_g88974542504030_cont_9to1c4b_294_19_alg».proof.Proof.Gen.Kernel.Skeleton
import proofs.«105989_g88974542504030_cont_9to1c4b_294_19_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block of the first kernel at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block of the second kernel at point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window the body only reads holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two conditions over the grid -/

/-- "This is the first point" holds at point 0 only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- "This is a later point" holds at every point but 0. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two always holds, so the accumulator is stored into at every point. -/
theorem live0_2 : ∀ t : Fin cfg0.N, cfg0.idle 2 (grid0.coords t) = false :=
  (by decide +kernel : ∀ t : Fin grid0.N, idle0 2 (grid0.coords t) = false)

/-- One staging buffer of the accumulator, through which its contents are stated. -/
abbrev VO0_2 : View sig .tc .vmem S16x1024 .f32 := (Memref.whole cc0_stg2_0 : Memref sig .tc .vmem S16x1024 .f32).view
/-- Each window's current staging memref at point t as the pipeline passes it, and its wholeness. -/
abbrev ms0_0 (t : Fin cfg0.N) : Memref sig .tc .vmem S1x16x4000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)

end Cert.Kernel.Hand

end
-- ==== Proof.K.Run0A.lean ====
/-
  The first kernel's body at the first grid point: it stores the product of its two input blocks into the
  accumulator block (whatever the block held).  The pieces the accumulator ends with are found by the run.
-/
import proofs.«105989_g88974542504030_cont_9to1c4b_294_19_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "first point" holds and "later point" fails: from the two input blocks at their contents and
    the accumulator at anything, the body runs to the inputs as they were and the accumulator with its pieces written. -/
noncomputable def kernelRun0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) :
    { L2 : List (View.Piece (Elt F) S16x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.Run0B.lean ====
/-
  The first kernel's body at a later grid point: it loads the accumulator block, adds the product of its two input
  blocks and stores the sum back.  The pieces the accumulator ends with are found by the run.
-/
import proofs.«105989_g88974542504030_cont_9to1c4b_294_19_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "first point" fails and "later point" holds: from the two input blocks at their contents and
    the accumulator at its running contents, the body runs to the inputs as they were and the accumulator with its
    pieces written. -/
noncomputable def kernelRun0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) :
    { L2 : List (View.Piece (Elt F) S16x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.Frame0.lean ====
/-
  The first kernel point by point.  What the accumulator block holds after point n is defined by recursion on n:
  after point 0 what the first-point case leaves from the two input blocks, after point n+1 what the later-point case
  leaves from the input blocks there and the contents after point n (the block is not written back between
  points: its index never moves).  With that as the proof data's "after", every input at its block, the body
  obligation holds at every point by the case the point is in.
-/
import proofs.«105989_g88974542504030_cont_9to1c4b_294_19_alg».proof.Proof.K.Run0A
import proofs.«105989_g88974542504030_cont_9to1c4b_294_19_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is stored into at every point, at any coordinates of the grid. -/
theorem live0_2_all : ∀ i : grid0.Coords, cfg0.idle 2 i = false := by
  intro i
  have h : ∀ n : ℕ, n < 25 → (!(Scalar.cmpi .ne (Scalar.extui (Scalar.cmpi .eq (BitVec.ofNat 32 n) 0#32) : BitVec 32) 0#32 == 1#1)
      && !(Scalar.cmpi .ne (Scalar.extui (Scalar.cmpi .sgt (BitVec.ofNat 32 n) 0#32) : BitVec 32) 0#32 == 1#1)) = false := by decide +kernel
  exact h (i 0).val (i 0).isLt

/-- The same at a grid point, in the spelling the body obligation prints. -/
theorem live0_2_at (t : Fin cfg0.N) : idle0 2 (grid0.coords t) = false := live0_2 t

/-- The first-point case's pieces tile the accumulator block, so they cover it. -/
theorem cover0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) (y : S16x1024.Idx) :
    ∃ pc ∈ (kernelRun0_A c i arg1 harg1 arg2 harg2 arg3 harg3 hc1 hc2 x0 x1).1, y ∈ pc.1.set :=
  View.cover_of_tiledL (kernelRun0_A c i arg1 harg1 arg2 harg2 arg3 harg3 hc1 hc2 x0 x1).1 S16x1024.size (by sl_kernel_rfl) y

/-- What the first-point case leaves in the accumulator block: its pieces read back. -/
def out0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) : Vec F S16x1024 .f32 :=
  VO0_2.read (Elt F) (VO0_2.writes (Elt F) VO0_2.junk (kernelRun0_A c i arg1 harg1 arg2 harg2 arg3 harg3 hc1 hc2 x0 x1).1)

/-- The later-point case's pieces tile the accumulator block, so they cover it. -/
theorem cover0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) (y : S16x1024.Idx) :
    ∃ pc ∈ (kernelRun0_B c i arg1 harg1 arg2 harg2 arg3 harg3 hc1 hc2 x0 x1 xo).1, y ∈ pc.1.set :=
  View.cover_of_tiledL (kernelRun0_B c i arg1 harg1 arg2 harg2 arg3 harg3 hc1 hc2 x0 x1 xo).1 S16x1024.size (by sl_kernel_rfl) y

/-- What the later-point case leaves in the accumulator block: its pieces read back. -/
def out0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) : Vec F S16x1024 .f32 :=
  VO0_2.read (Elt F) (VO0_2.writes (Elt F) VO0_2.junk (kernelRun0_B c i arg1 harg1 arg2 harg2 arg3 harg3 hc1 hc2 x0 x1 xo).1)

section
variable (V : (c : Dev nD) → (b : Ref sig .tc) → Buf (Elt F) ((c : Thread nD τ).loc b))

/-- The accumulation: the accumulator block after point n. -/
def outsAt0 (c : Dev nD) : (n : ℕ) → n < cfg0.N → Vec F S16x1024 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond1 ⟨0, hn⟩).mpr rfl) (fun h => (hcond2 ⟨0, hn⟩).mp h rfl) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => Nat.succ_ne_zero n ((hcond1 ⟨n + 1, hn⟩).mp h)) ((hcond2 ⟨n + 1, hn⟩).mpr (Nat.succ_ne_zero n)) (iblk0 V c 0 ⟨n + 1, hn⟩) (iblk0 V c 1 ⟨n + 1, hn⟩) (outsAt0 c n (Nat.lt_of_succ_lt hn))

/-- At the first point: the first-point case's contents. -/
theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) ((hcond1 t).mpr h0) (fun h => (hcond2 t).mp h h0) (iblk0 V c 0 t) (iblk0 V c 1 t) := by
  obtain ⟨n, hn⟩ := t
  cases n with
  | zero => exact rfl
  | succ n => exact absurd h0 (Nat.succ_ne_zero n)

/-- At a later point: the later-point case's contents, over what the point before left. -/
theorem outsAt0_B (c : Dev nD) (t : Fin cfg0.N) (h0 : t.val ≠ 0) :
    outsAt0 V c t.val t.isLt = out0_B c (grid0.coords t) (ms0_0 t) (hs0_0 t) (ms0_1 t) (hs0_1 t) (ms0_2 t) (hs0_2 t) (fun h => h0 ((hcond1 t).mp h)) ((hcond2 t).mpr h0) (iblk0 V c 0 t) (iblk0 V c 1 t) (outsAt0 V c (t.val - 1) (Nat.lt_of_le_of_lt (Nat.sub_le _ _) t.isLt)) := by
  obtain ⟨n, hn⟩ := t
  cases n with
  | zero => exact absurd rfl h0
  | succ n => exact rfl

/-- The first pipeline's proof data on core c: the arrays as the region finds them; after the body at point t each
    input's buffer at its block and the accumulator at the accumulation; the scoped rest and the generator register
    ride along; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the accumulator's buffer holds what the body left at the point before: the block is written
    back only after the last point, and the window is stored into at every point. -/
theorem before0_2_B (c : Dev nD) (t : Fin cfg0.N) (h0 : t.val ≠ 0) (d) :
    (dat0 V c).before 2 t d = outsAt0 V c (t.val - 1) (Nat.lt_of_le_of_lt (Nat.sub_le _ _) t.isLt) := by
  have hN : t.val < 25 := lt_of_lt_of_eq t.isLt (show cfg0.N = 25 from N_0)
  rw [Dat.before_out_kept _ 2 rfl t h0 (Bool.eq_false_iff.mpr fun h => by have := (flush0_2 _).mp h; dsimp only at this; omega)
    live0_2_all (fun _ _ => rfl)]
  dsimp only [dat0]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or a later one; at a later
    one the accumulator holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond1 t).mpr h0) (fun h => (hcond2 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond1 t).mp h)) ((hcond2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _)

/-- The body obligation of the first pipeline, at every point. -/
theorem body_obligation0 (c : Dev nD) : BodyObligation (dat0 (F := F) V c) (defs₀ (F := F)) Variants.none () Set.univ := fun t => by
  rw [bigSep_W0, bigSep_W0]
  simp only [live0_2_at t]
  exact sound_body0 V c t

end

end Cert.Kernel.Hand

end
-- ==== Proof.K.Run1.lean ====
/-
  The second kernel's body at any grid point: six input blocks are loaded whole, the utility block is computed and
  stored whole into the output block (whatever it held).  The pieces the output ends with are found by the run.
-/
import proofs.«105989_g88974542504030_cont_9to1c4b_294_19_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the six input blocks at their contents and the output block at anything, the body runs to the inputs as
    they were and the output with its pieces written. -/
noncomputable def kernelRun1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) :
    { L6 : List (View.Piece (Elt F) S40x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__utility_kernel i arg1 harg1 arg2 harg2 arg3 harg3 arg4 harg4 arg5 harg5 arg6 harg6 arg7 harg7) K } := by
  refine ⟨?_, fun E K => ?run⟩
  case run =>
    simp only [cc1__utility_kernel_eq_skeleton]; unfold cc1__utility_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.K.Frame1.lean ====
/-
  The second kernel point by point.  Each grid point stores its whole output block, computed from the six input
  blocks at that point; nothing is carried between points.  With each input at its block and the output at what
  the body's store leaves as the proof data's "after", the body obligation holds at every point.
-/
import proofs.«105989_g88974542504030_cont_9to1c4b_294_19_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output, through which its contents are stated. -/
abbrev VO1_6 : View sig .tc .vmem S40x1024 .f32 := (Memref.whole cc1_stg6_0 : Memref sig .tc .vmem S40x1024 .f32).view
abbrev ms1_0 (t : Fin cfg1.N) : Memref sig .tc .vmem S40x16x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S40x16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S40x16x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S40x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S40x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S40x1024 .f32 := win1_6.stage (cfg1.slots t 6)
abbrev hs1_6 (t : Fin cfg1.N) : (ms1_6 t).IsWhole := hstage1_6 ((cfg1.slots t 6).cast nbuf1_6)

/-- The body's pieces tile the output block, so they cover it. -/
theorem cover1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) (y : S40x1024.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S40x1024.size (by sl_kernel_rfl) y

/-- What the body leaves in the output block: its pieces read back. -/
def out1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) : Vec F S40x1024 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

section
variable (V : (c : Dev nD) → (b : Ref sig .tc) → Buf (Elt F) ((c : Thread nD τ).loc b))

/-- The second pipeline's proof data on core c: the arrays as the region finds them; after the body at point t each
    input's buffer at its block and the output's at what the body leaves from the input blocks; the scoped rest and
    the generator register ride along; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1 c _ _ _ _ _ _ _ _ _ _ _ _ _ _ _ _ _ _ _ _ _)

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Main.lean ====
/-
  The whole run.  @main is five stretches: nine host operations (the transposed and re-chunked views of the
  arguments), the first pallas_call, one host operation (the availability bits widened), the second pallas_call, and
  the final transpose.  The buffer contents at each boundary are a fold from the launch memory: a host stretch applies
  its operations, a pallas_call leaves its arrays at what its write-backs leave and every other buffer as it found
  it.  Every weakly fair execution terminates and ends with every unscoped buffer at the last boundary's contents;
  no stretch writes an argument, so the arguments end as launched.
-/
import proofs.«105989_g88974542504030_cont_9to1c4b_294_19_alg».proof.Proof.K.Frame0
import proofs.«105989_g88974542504030_cont_9to1c4b_294_19_alg».proof.Proof.K.Frame1
import proofs.«105989_g88974542504030_cont_9to1c4b_294_19_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the "nothing owed": every unscoped buffer at the last contents, the generator at some state. -/
abbrev TnH (c : Dev nD) : sProp 𝕄 := iprop(StableHlo.held (c : Thread nD τ) (Pipeline.ucRefs τ sig) (W5 m ρ c) ∗ ∃ r, prngReg c r)

/-! ## The two pallas_calls as segments -/

set_option backward.isDefEq.respectTransparency.types false in
/-- The first pallas_call: entered from every unscoped buffer at W1, left at W2. -/
def reg0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at W3, left at W4. -/
def reg1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, whose post is the last thread state beside nothing owed. -/
abbrev segsH : List (Pipeline.Seg (pcfgs (F := F)) adm (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)) ]

theorem main_runH (c : Dev nD) : main (F := F) c = Pipeline.Seg.run (segsH m ρ) := (main_chain c).trans (by chain_rfl)

set_option backward.isDefEq.respectTransparency.types false in
/-- THE RUN: every weakly fair execution of @main terminates, nothing faulting, and every unscoped buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c)⟩) (run_all m ρ)

end Cert.Kernel.Hand

end
-- ==== Proof.KI.Runs.lean ====
/-
  What the two kernels' runs are stated over.  The first kernel accumulates a [16,1024] block over 25 grid points:
  at point 0 it stores the product of its two input blocks, at every later point it adds the product to what the
  block holds.  The second kernel is one whole-block store per point.  Here: each window's block at a point as a
  read of the array the region finds, the fact that an input's staging buffer holds that block whether fetched at
  the point or not, and the two conditions of the first kernel decided over the grid.
-/
import proofs.«105989_g88974542504030_cont_9to1c4b_294_19_alg».proof.Proof.Gen.KernelIdeal.Launch
import proofs.«105989_g88974542504030_cont_9to1c4b_294_19_alg».proof.Proof.Gen.KernelIdeal.Skeleton
import proofs.«105989_g88974542504030_cont_9to1c4b_294_19_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block of the first kernel at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block of the second kernel at point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window the body only reads holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two conditions over the grid -/

/-- "This is the first point" holds at point 0 only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- "This is a later point" holds at every point but 0. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two always holds, so the accumulator is stored into at every point. -/
theorem live0_2 : ∀ t : Fin cfg0.N, cfg0.idle 2 (grid0.coords t) = false :=
  (by decide +kernel : ∀ t : Fin grid0.N, idle0 2 (grid0.coords t) = false)

/-- One staging buffer of the accumulator, through which its contents are stated. -/
abbrev VO0_2 : View sig .tc .vmem S16x1024 .f32 := (Memref.whole cc0_stg2_0 : Memref sig .tc .vmem S16x1024 .f32).view
/-- Each window's current staging memref at point t as the pipeline passes it, and its wholeness. -/
abbrev ms0_0 (t : Fin cfg0.N) : Memref sig .tc .vmem S1x16x4000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI.Run0A.lean ====
/-
  The first kernel's body at the first grid point: it stores the product of its two input blocks into the
  accumulator block (whatever the block held).  The pieces the accumulator ends with are found by the run.
-/
import proofs.«105989_g88974542504030_cont_9to1c4b_294_19_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "first point" holds and "later point" fails: from the two input blocks at their contents and
    the accumulator at anything, the body runs to the inputs as they were and the accumulator with its pieces written. -/
noncomputable def kernelRun0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) :
    { L2 : List (View.Piece (Elt F) S16x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.Run0B.lean ====
/-
  The first kernel's body at a later grid point: it loads the accumulator block, adds the product of its two input
  blocks and stores the sum back.  The pieces the accumulator ends with are found by the run.
-/
import proofs.«105989_g88974542504030_cont_9to1c4b_294_19_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "first point" fails and "later point" holds: from the two input blocks at their contents and
    the accumulator at its running contents, the body runs to the inputs as they were and the accumulator with its
    pieces written. -/
noncomputable def kernelRun0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) :
    { L2 : List (View.Piece (Elt F) S16x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.Frame0.lean ====
/-
  The first kernel point by point.  What the accumulator block holds after point n is defined by recursion on n:
  after point 0 what the first-point case leaves from the two input blocks, after point n+1 what the later-point case
  leaves from the input blocks there and the contents after point n (the block is not written back between
  points: its index never moves).  With that as the proof data's "after", every input at its block, the body
  obligation holds at every point by the case the point is in.
-/
import proofs.«105989_g88974542504030_cont_9to1c4b_294_19_alg».proof.Proof.KI.Run0A
import proofs.«105989_g88974542504030_cont_9to1c4b_294_19_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is stored into at every point, at any coordinates of the grid. -/
theorem live0_2_all : ∀ i : grid0.Coords, cfg0.idle 2 i = false := by
  intro i
  have h : ∀ n : ℕ, n < 25 → (!(Scalar.cmpi .ne (Scalar.extui (Scalar.cmpi .eq (BitVec.ofNat 32 n) 0#32) : BitVec 32) 0#32 == 1#1)
      && !(Scalar.cmpi .ne (Scalar.extui (Scalar.cmpi .sgt (BitVec.ofNat 32 n) 0#32) : BitVec 32) 0#32 == 1#1)) = false := by decide +kernel
  exact h (i 0).val (i 0).isLt

/-- The same at a grid point, in the spelling the body obligation prints. -/
theorem live0_2_at (t : Fin cfg0.N) : idle0 2 (grid0.coords t) = false := live0_2 t

/-- The first-point case's pieces tile the accumulator block, so they cover it. -/
theorem cover0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) (y : S16x1024.Idx) :
    ∃ pc ∈ (kernelRun0_A c i arg1 harg1 arg2 harg2 arg3 harg3 hc1 hc2 x0 x1).1, y ∈ pc.1.set :=
  View.cover_of_tiledL (kernelRun0_A c i arg1 harg1 arg2 harg2 arg3 harg3 hc1 hc2 x0 x1).1 S16x1024.size (by sl_kernel_rfl) y

/-- What the first-point case leaves in the accumulator block: its pieces read back. -/
def out0_A (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : k0_cond1 i = 1#1) (hc2 : ¬k0_cond2 i = 1#1)
    (x0 : Vec F S1x16x4000 .f32) (x1 : Vec F S4000x1024 .f32) : Vec F S16x1024 .f32 :=
  VO0_2.read (Elt F) (VO0_2.writes (Elt F) VO0_2.junk (kernelRun0_A c i arg1 harg1 arg2 harg2 arg3 harg3 hc1 hc2 x0 x1).1)

/-- The later-point case's pieces tile the accumulator block, so they cover it. -/
theorem cover0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) (y : S16x1024.Idx) :
    ∃ pc ∈ (kernelRun0_B c i arg1 harg1 arg2 harg2 arg3 harg3 hc1 hc2 x0 x1 xo).1, y ∈ pc.1.set :=
  View.cover_of_tiledL (kernelRun0_B c i arg1 harg1 arg2 harg2 arg3 harg3 hc1 hc2 x0 x1 xo).1 S16x1024.size (by sl_kernel_rfl) y

/-- What the later-point case leaves in the accumulator block: its pieces read back. -/
def out0_B (c : Dev nD) (i : grid0.Coords) (arg1 : Memref sig .tc .vmem S1x16x4000 .f32) (harg1 : arg1.IsWhole) (arg2 : Memref sig .tc .vmem S4000x1024 .f32) (harg2 : arg2.IsWhole) (arg3 : Memref sig .tc .vmem S16x1024 .f32) (harg3 : arg3.IsWhole) (hc1 : ¬k0_cond1 i = 1#1) (hc2 : k0_cond2 i = 1#1)
    (x0 : Vec F S1x16x4000 .f32) (x1 : Vec F S4000x1024 .f32) (xo : Vec F S16x1024 .f32) : Vec F S16x1024 .f32 :=
  VO0_2.read (Elt F) (VO0_2.writes (Elt F) VO0_2.junk (kernelRun0_B c i arg1 harg1 arg2 harg2 arg3 harg3 hc1 hc2 x0 x1 xo).1)

section
variable (V : (c : Dev nD) → (b : Ref sig .tc) → Buf (Elt F) ((c : Thread nD τ).loc b))

/-- The accumulation: the accumulator block after point n. -/
def outsAt0 (c : Dev nD) : (n : ℕ) → n < cfg0.N → Vec F S16x1024 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond1 ⟨0, hn⟩).mpr rfl) (fun h => (hcond2 ⟨0, hn⟩).mp h rfl) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => Nat.succ_ne_zero n ((hcond1 ⟨n + 1, hn⟩).mp h)) ((hcond2 ⟨n + 1, hn⟩).mpr (Nat.succ_ne_zero n)) (iblk0 V c 0 ⟨n + 1, hn⟩) (iblk0 V c 1 ⟨n + 1, hn⟩) (outsAt0 c n (Nat.lt_of_succ_lt hn))

/-- At the first point: the first-point case's contents. -/
theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) ((hcond1 t).mpr h0) (fun h => (hcond2 t).mp h h0) (iblk0 V c 0 t) (iblk0 V c 1 t) := by
  obtain ⟨n, hn⟩ := t
  cases n with
  | zero => exact rfl
  | succ n => exact absurd h0 (Nat.succ_ne_zero n)

/-- At a later point: the later-point case's contents, over what the point before left. -/
theorem outsAt0_B (c : Dev nD) (t : Fin cfg0.N) (h0 : t.val ≠ 0) :
    outsAt0 V c t.val t.isLt = out0_B c (grid0.coords t) (ms0_0 t) (hs0_0 t) (ms0_1 t) (hs0_1 t) (ms0_2 t) (hs0_2 t) (fun h => h0 ((hcond1 t).mp h)) ((hcond2 t).mpr h0) (iblk0 V c 0 t) (iblk0 V c 1 t) (outsAt0 V c (t.val - 1) (Nat.lt_of_le_of_lt (Nat.sub_le _ _) t.isLt)) := by
  obtain ⟨n, hn⟩ := t
  cases n with
  | zero => exact absurd rfl h0
  | succ n => exact rfl

/-- The first pipeline's proof data on core c: the arrays as the region finds them; after the body at point t each
    input's buffer at its block and the accumulator at the accumulation; the scoped rest and the generator register
    ride along; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the accumulator's buffer holds what the body left at the point before: the block is written
    back only after the last point, and the window is stored into at every point. -/
theorem before0_2_B (c : Dev nD) (t : Fin cfg0.N) (h0 : t.val ≠ 0) (d) :
    (dat0 V c).before 2 t d = outsAt0 V c (t.val - 1) (Nat.lt_of_le_of_lt (Nat.sub_le _ _) t.isLt) := by
  have hN : t.val < 25 := lt_of_lt_of_eq t.isLt (show cfg0.N = 25 from N_0)
  rw [Dat.before_out_kept _ 2 rfl t h0 (Bool.eq_false_iff.mpr fun h => by have := (flush0_2 _).mp h; dsimp only at this; omega)
    live0_2_all (fun _ _ => rfl)]
  dsimp only [dat0]

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or a later one; at a later
    one the accumulator holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond1 t).mpr h0) (fun h => (hcond2 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond1 t).mp h)) ((hcond2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _)

/-- The body obligation of the first pipeline, at every point. -/
theorem body_obligation0 (c : Dev nD) : BodyObligation (dat0 (F := F) V c) (defs₀ (F := F)) Variants.none () Set.univ := fun t => by
  rw [bigSep_W0, bigSep_W0]
  simp only [live0_2_at t]
  exact sound_body0 V c t

end

end Cert.KernelIdeal.Hand

end
-- ==== Proof.KI.Run1.lean ====
/-
  The second kernel's body at any grid point: six input blocks are loaded whole, the utility block is computed and
  stored whole into the output block (whatever it held).  The pieces the output ends with are found by the run.
-/
import proofs.«105989_g88974542504030_cont_9to1c4b_294_19_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the six input blocks at their contents and the output block at anything, the body runs to the inputs as
    they were and the output with its pieces written. -/
noncomputable def kernelRun1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) :
    { L6 : List (View.Piece (Elt F) S40x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__utility_kernel i arg1 harg1 arg2 harg2 arg3 harg3 arg4 harg4 arg5 harg5 arg6 harg6 arg7 harg7) K } := by
  refine ⟨?_, fun E K => ?run⟩
  case run =>
    simp only [cc1__utility_kernel_eq_skeleton]; unfold cc1__utility_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.KI.Frame1.lean ====
/-
  The second kernel point by point.  Each grid point stores its whole output block, computed from the six input
  blocks at that point; nothing is carried between points.  With each input at its block and the output at what
  the body's store leaves as the proof data's "after", the body obligation holds at every point.
-/
import proofs.«105989_g88974542504030_cont_9to1c4b_294_19_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output, through which its contents are stated. -/
abbrev VO1_6 : View sig .tc .vmem S40x1024 .f32 := (Memref.whole cc1_stg6_0 : Memref sig .tc .vmem S40x1024 .f32).view
abbrev ms1_0 (t : Fin cfg1.N) : Memref sig .tc .vmem S40x16x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S40x16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S40x16x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S40x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S40x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S40x1024 .f32 := win1_6.stage (cfg1.slots t 6)
abbrev hs1_6 (t : Fin cfg1.N) : (ms1_6 t).IsWhole := hstage1_6 ((cfg1.slots t 6).cast nbuf1_6)

/-- The body's pieces tile the output block, so they cover it. -/
theorem cover1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) (y : S40x1024.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S40x1024.size (by sl_kernel_rfl) y

/-- What the body leaves in the output block: its pieces read back. -/
def out1 (c : Dev nD) (i : grid1.Coords) (arg1 : Memref sig .tc .vmem S40x16x1024 .f32) (harg1 : arg1.IsWhole) (arg2 : Memref sig .tc .vmem S40x16x1024 .f32) (harg2 : arg2.IsWhole) (arg3 : Memref sig .tc .vmem S40x16x1 .f32) (harg3 : arg3.IsWhole) (arg4 : Memref sig .tc .vmem S16x1024 .f32) (harg4 : arg4.IsWhole) (arg5 : Memref sig .tc .vmem S40x1x1 .f32) (harg5 : arg5.IsWhole) (arg6 : Memref sig .tc .vmem S40x1024 .i32) (harg6 : arg6.IsWhole) (arg7 : Memref sig .tc .vmem S40x1024 .f32) (harg7 : arg7.IsWhole)
    (x0 : Vec F S40x16x1024 .f32) (x1 : Vec F S40x16x1024 .f32) (x2 : Vec F S40x16x1 .f32) (x3 : Vec F S16x1024 .f32) (x4 : Vec F S40x1x1 .f32) (x5 : Vec F S40x1024 .i32) : Vec F S40x1024 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

section
variable (V : (c : Dev nD) → (b : Ref sig .tc) → Buf (Elt F) ((c : Thread nD τ).loc b))

/-- The second pipeline's proof data on core c: the arrays as the region finds them; after the body at point t each
    input's buffer at its block and the output's at what the body leaves from the input blocks; the scoped rest and
    the generator register ride along; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1 c _ _ _ _ _ _ _ _ _ _ _ _ _ _ _ _ _ _ _ _ _)

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Main.lean ====
/-
  The whole run.  @main is five stretches: nine host operations (the transposed and re-chunked views of the
  arguments), the first pallas_call, one host operation (the availability bits widened), the second pallas_call, and
  the final transpose.  The buffer contents at each boundary are a fold from the launch memory: a host stretch applies
  its operations, a pallas_call leaves its arrays at what its write-backs leave and every other buffer as it found
  it.  Every weakly fair execution terminates and ends with every unscoped buffer at the last boundary's contents;
  no stretch writes an argument, so the arguments end as launched.
-/
import proofs.«105989_g88974542504030_cont_9to1c4b_294_19_alg».proof.Proof.KI.Frame0
import proofs.«105989_g88974542504030_cont_9to1c4b_294_19_alg».proof.Proof.KI.Frame1
import proofs.«105989_g88974542504030_cont_9to1c4b_294_19_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the "nothing owed": every unscoped buffer at the last contents, the generator at some state. -/
abbrev TnH (c : Dev nD) : sProp 𝕄 := iprop(StableHlo.held (c : Thread nD τ) (Pipeline.ucRefs τ sig) (W5 m ρ c) ∗ ∃ r, prngReg c r)

/-! ## The two pallas_calls as segments -/

set_option backward.isDefEq.respectTransparency.types false in
/-- The first pallas_call: entered from every unscoped buffer at W1, left at W2. -/
def reg0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at W3, left at W4. -/
def reg1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, whose post is the last thread state beside nothing owed. -/
abbrev segsH : List (Pipeline.Seg (pcfgs (F := F)) adm (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)) ]

theorem main_runH (c : Dev nD) : main (F := F) c = Pipeline.Seg.run (segsH m ρ) := (main_chain c).trans (by chain_rfl)

set_option backward.isDefEq.respectTransparency.types false in
/-- THE RUN: every weakly fair execution of @main terminates, nothing faulting, and every unscoped buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c)⟩) (run_all m ρ)

end Cert.KernelIdeal.Hand

end
-- ==== Proof.Pay.lean ====
/-
  The two kernel bodies' arithmetic read at an index, at the ideal values.

  First body: the [16,4000] block (the [1,16,4000] block with its unit axis dropped) times the [4000,1024]
  block, entry (p, b) being the sum over u of the products; then the accumulator plus that.
  Second body: for item n and trip b, the sum over the 16 features p of
      x_u[n,p,b]·c_u[n,p] + x_i[n,p,b]·c[p,b],
  plus the item's constant, kept where the availability word is not zero and replaced by the fill value elsewhere.
-/
import proofs.«105989_g88974542504030_cont_9to1c4b_294_19_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-! ## Layout operations of the two bodies read at coordinates -/

section Layout
variable {α : Type}

/-- A [40,1,1] array cast to [40,1] reads, at (n, u), the operand at (n, 0, 0). -/
theorem shapeCast_a11_a1_apply (x : (⟨3, ![40, 1, 1]⟩ : Shape).Idx → α)
    (h : (⟨3, ![40, 1, 1]⟩ : Shape).ShapeCasts ⟨2, ![40, 1]⟩) (n : Fin 40) (u : Fin 1) :
    shapeCast ⟨2, ![40, 1]⟩ x h (ix2 n u) = x (ix3 n (0 : Fin 1) (0 : Fin 1)) :=
  shapeCast_apply x h _ _ (by
    have hu : u.val = 0 := by omega
    rw [Shape.rowMajor_val_three, Shape.rowMajor_val_two]
    show (n.val * 1 + 0) * 1 + 0 = n.val * 1 + u.val
    omega)

/-- A [40,16,1] array broadcast to [40,16,1024] reads, at (n, p, b), the operand at (n, p, 0). -/
theorem broadcastTo_ab1_abc_apply (x : (⟨3, ![40, 16, 1]⟩ : Shape).Idx → α)
    (h : (⟨3, ![40, 16, 1]⟩ : Shape).Broadcasts ⟨3, ![40, 16, 1024]⟩) (n : Fin 40) (p : Fin 16) (b : Fin 1024) :
    broadcastTo ⟨3, ![40, 16, 1024]⟩ x h (ix3 n p b) = x (ix3 n p (0 : Fin 1)) := by
  refine broadcastTo_apply x h (ix3 n p b) (ix3 n p (0 : Fin 1)) fun ax => ?_
  match ax with
  | ⟨0, _⟩ => show n.val = if (40 : Nat) = 1 then 0 else n.val; rw [if_neg (by decide)]
  | ⟨1, _⟩ => show p.val = if (16 : Nat) = 1 then 0 else p.val; rw [if_neg (by decide)]
  | ⟨2, _⟩ => show 0 = if (1 : Nat) = 1 then 0 else b.val; rw [if_pos rfl]

/-- A [1,16,1024] array broadcast to [40,16,1024] reads, at (n, p, b), the operand at (0, p, b). -/
theorem broadcastTo_1bc_abc_apply (x : (⟨3, ![1, 16, 1024]⟩ : Shape).Idx → α)
    (h : (⟨3, ![1, 16, 1024]⟩ : Shape).Broadcasts ⟨3, ![40, 16, 1024]⟩) (n : Fin 40) (p : Fin 16) (b : Fin 1024) :
    broadcastTo ⟨3, ![40, 16, 1024]⟩ x h (ix3 n p b) = x (ix3 (0 : Fin 1) p b) := by
  refine broadcastTo_apply x h (ix3 n p b) (ix3 (0 : Fin 1) p b) fun ax => ?_
  match ax with
  | ⟨0, _⟩ => show 0 = if (1 : Nat) = 1 then 0 else n.val; rw [if_pos rfl]
  | ⟨1, _⟩ => show p.val = if (16 : Nat) = 1 then 0 else p.val; rw [if_neg (by decide)]
  | ⟨2, _⟩ => show b.val = if (1024 : Nat) = 1 then 0 else b.val; rw [if_neg (by decide)]

/-- A [40,1] array broadcast to [40,1024] reads, at (n, b), the operand at (n, 0). -/
theorem broadcastTo_a1_ab_apply (x : (⟨2, ![40, 1]⟩ : Shape).Idx → α)
    (h : (⟨2, ![40, 1]⟩ : Shape).Broadcasts ⟨2, ![40, 1024]⟩) (n : Fin 40) (b : Fin 1024) :
    broadcastTo ⟨2, ![40, 1024]⟩ x h (ix2 n b) = x (ix2 n (0 : Fin 1)) := by
  refine broadcastTo_apply x h (ix2 n b) (ix2 n (0 : Fin 1)) fun ax => ?_
  match ax with
  | ⟨0, _⟩ => show n.val = if (40 : Nat) = 1 then 0 else n.val; rw [if_neg (by decide)]
  | ⟨1, _⟩ => show 0 = if (1 : Nat) = 1 then 0 else b.val; rw [if_pos rfl]

end Layout

/-- An integer comparison of two vectors at an index compares the elements. -/
theorem cmpi_apply {s : Shape} {w : Nat} (p : CmpIPredicate) (x y : IVec s w) (i : s.Idx) :
    cmpi p x y i = Scalar.cmpi p (x i) (y i) := rfl

/-! ## The sum over the middle axis of a [40,16,1024] vector -/

/-- The sum over axis 1 of a [40,16,1024] vector reads, at (n, b), the sum over p of the vector at (n, p, b). -/
theorem sumMiddle_apply (x : FVec Ideal S40x16x1024 .f32) (h : S40x16x1024.Reduces [1] S40x1024)
    (hφ : FKind.Formats .f32) (hacc : (0x00000000#32 : BitVec 32) = FKind.add.neutral .f32 hφ)
    (n : Fin 40) (b : Fin 1024) :
    multiReduction (F := Ideal) .add [1] S40x1024 x 0x00000000#32 h hφ hacc (ix2 n b) = ∑ p : Fin 16, x (ix3 n p b) :=
  (Ideal.multiReduction_add_single x 0x00000000#32 h hφ hacc (ix2 n b)).trans
    (Finset.sum_congr rfl fun p _ => congrArg x (funext fun a => Fin.ext (by
      match a with
      | ⟨0, _⟩ => rfl
      | ⟨1, _⟩ => rfl
      | ⟨2, _⟩ => rfl)))

/-! ## The first body's product -/

theorem lhs_0 (i : S16x1024.Idx) (q : dot_S16x4000_S4000x1024_S16x1024_1_0_0_1_n_n.contr.Idx) :
    (dot_S16x4000_S4000x1024_S16x1024_1_0_0_1_n_n.lhsIdx i q 0).val = (i 0).val := by
  unfold DotDims.lhsIdx
  rw [dif_neg (show ¬(0 : Fin S16x4000.rank) ∈ dot_S16x4000_S4000x1024_S16x1024_1_0_0_1_n_n.lhsBatch by decide), dif_pos (show (0 : Fin S16x4000.rank) ∈ dot_S16x4000_S4000x1024_S16x1024_1_0_0_1_n_n.lhsNonContracting by decide)]
  rfl
theorem lhs_1 (i : S16x1024.Idx) (q : dot_S16x4000_S4000x1024_S16x1024_1_0_0_1_n_n.contr.Idx) :
    (dot_S16x4000_S4000x1024_S16x1024_1_0_0_1_n_n.lhsIdx i q 1).val = (q ⟨0, by decide⟩).val :=
  dot_S16x4000_S4000x1024_S16x1024_1_0_0_1_n_n.lhsIdx_val_of_single rfl i q
theorem rhs_0 (i : S16x1024.Idx) (q : dot_S16x4000_S4000x1024_S16x1024_1_0_0_1_n_n.contr.Idx) :
    (dot_S16x4000_S4000x1024_S16x1024_1_0_0_1_n_n.rhsIdx i q 0).val = (q ⟨0, by decide⟩).val :=
  dot_S16x4000_S4000x1024_S16x1024_1_0_0_1_n_n.rhsIdx_val_of_single rfl i q
theorem rhs_1 (i : S16x1024.Idx) (q : dot_S16x4000_S4000x1024_S16x1024_1_0_0_1_n_n.contr.Idx) :
    (dot_S16x4000_S4000x1024_S16x1024_1_0_0_1_n_n.rhsIdx i q 1).val = (i 1).val := by
  unfold DotDims.rhsIdx
  rw [dif_neg (show ¬(1 : Fin S4000x1024.rank) ∈ dot_S16x4000_S4000x1024_S16x1024_1_0_0_1_n_n.rhsBatch by decide), dif_pos (show (1 : Fin S4000x1024.rank) ∈ dot_S16x4000_S4000x1024_S16x1024_1_0_0_1_n_n.rhsNonContracting by decide)]
  rfl

/-- The product of a [16,4000] and a [4000,1024] vector into the zero accumulator reads, at (p, b), the sum over u of
    the products of the entries (p, u) and (u, b). -/
theorem matmul_zero_apply (x : FVec Ideal S16x4000 .f32) (y : FVec Ideal S4000x1024 .f32) (p : Fin 16) (b : Fin 1024) :
    matmul (F := Ideal) dot_S16x4000_S4000x1024_S16x1024_1_0_0_1_n_n none x y (constant (F := Ideal) S16x1024 .f32 0x00000000#32) (ix2 p b)
      = ∑ u : Fin 4000, x (ix2 p u) * y (ix2 u b) := by
  simp only [matmul]
  rw [Ideal.matmul_constant_zero_apply, ← Equiv.sum_comp (contrEquiv1 dot_S16x4000_S4000x1024_S16x1024_1_0_0_1_n_n 4000 rfl rfl).symm]
  refine Finset.sum_congr rfl fun k _ => ?_
  have hk := contrEquiv1_symm_val dot_S16x4000_S4000x1024_S16x1024_1_0_0_1_n_n 4000 rfl rfl k
  have el : dot_S16x4000_S4000x1024_S16x1024_1_0_0_1_n_n.lhsIdx (ix2 p b) ((contrEquiv1 dot_S16x4000_S4000x1024_S16x1024_1_0_0_1_n_n 4000 rfl rfl).symm k) = ix2 p k := funext fun a => Fin.ext (by
    match a with
    | ⟨0, _⟩ => exact lhs_0 _ _
    | ⟨1, _⟩ => exact (lhs_1 _ _).trans hk)
  have er : dot_S16x4000_S4000x1024_S16x1024_1_0_0_1_n_n.rhsIdx (ix2 p b) ((contrEquiv1 dot_S16x4000_S4000x1024_S16x1024_1_0_0_1_n_n 4000 rfl rfl).symm k) = ix2 k b := funext fun a => Fin.ext (by
    match a with
    | ⟨0, _⟩ => exact (rhs_0 _ _).trans hk
    | ⟨1, _⟩ => exact rhs_1 _ _)
  rw [el, er]

/-- The first body's product at (p, b): the sum over the block's 4000 users of x[0,p,u]·y[u,b]. -/
theorem pay1_apply (v0 : Vec Ideal S1x16x4000 .f32) (v2 : Vec Ideal S4000x1024 .f32) (p : Fin 16) (b : Fin 1024) :
    k0_pay1 (F := Ideal) v0 v2 (ix2 p b) = ∑ u : Fin 4000, v0 (ix3 0 p u) * v2 (ix2 u b) := by
  unfold k0_pay1
  simp only [shapeCast_self]
  refine (matmul_zero_apply _ v2 p b).trans ?_
  refine Finset.sum_congr rfl fun u _ => ?_
  rw [shapeCast_1ab_ab_apply]

/-- The first body's accumulation at (p, b): the accumulator there plus the product. -/
theorem pay2_apply (v0 : Vec Ideal S1x16x4000 .f32) (v2 : Vec Ideal S4000x1024 .f32) (acc : Vec Ideal S16x1024 .f32) (p : Fin 16) (b : Fin 1024) :
    k0_pay2 (F := Ideal) v0 v2 acc (ix2 p b) = acc (ix2 p b) + ∑ u : Fin 4000, v0 (ix3 0 p u) * v2 (ix2 u b) := by
  unfold k0_pay2
  simp only [shapeCast_self]
  rw [addf_apply, pay1_apply]

/-- The second body's result at (n, b). -/
theorem util_apply (v0 : Vec Ideal S40x16x1024 .f32) (v2 : Vec Ideal S40x16x1 .f32) (v6 : Vec Ideal S40x16x1024 .f32) (v8 : Vec Ideal S16x1024 .f32) (v15 : Vec Ideal S40x1x1 .f32) (v20 : Vec Ideal S40x1024 .i32) (n : Fin 40) (b : Fin 1024) :
    k1_pay1 (F := Ideal) v0 v2 v6 v8 v15 v20 (ix2 n b)
      = Scalar.select (Scalar.cmpi .ne (v20 (ix2 n b)) 0#32)
          ((∑ p : Fin 16, (v0 (ix3 n p b) * v2 (ix3 n p 0) + v6 (ix3 n p b) * v8 (ix2 p b))) + v15 (ix3 n 0 0))
          (Ideal.ofBits .f32 0xE0AD78EC#32) := by
  unfold k1_pay1
  simp only [shapeCast_self]
  rw [select_apply, cmpi_apply, constantI_apply, addf_apply, broadcast_apply, broadcastTo_a1_ab_apply,
    shapeCast_a11_a1_apply]
  refine congrArg (fun t : EReal => Scalar.select _ (t + _) _) ?_
  refine (sumMiddle_apply _ _ _ _ n b).trans ?_
  refine Finset.sum_congr rfl fun p _ => ?_
  rw [addf_apply, mulf_apply, mulf_apply, broadcastTo_ab1_abc_apply, broadcastTo_1bc_abc_apply, shapeCast_ab_1ab_apply]

end Cert.KernelIdeal.Pay

end
-- ==== Proof.Spec.lean ====
/-
  The specification: the utility table as one function of the seven argument arrays, entry by entry, on the
  extended reals.  For trip b and item n

    U b n = Σ_p x_u[b,n,p]·c_u[n,p]  +  Σ_p x_i[b,n,p]·(Σ_u onehot[b,u]·c_i[u,p])  +  c_0[n,0]

  and the result holds U b n where the availability bit is set and the fill word elsewhere.
-/
import Idealize.ShloMosaic.PureOps.Ideal
import Idealize.ShloMosaic.Lib.ValueIdx

noncomputable section

namespace Cert.Spec

open Idealize.ShloMosaic Idealize.ShloMosaic.ValueIdx

/-- Position u of block k when the 100000 users are taken in 25 consecutive blocks of 4000. -/
def pos (k : Fin 25) (u : Fin 4000) : Fin 100000 := ⟨k.val * 4000 + u.val, by omega⟩

/-- The user's coefficient row: entry p of onehot[b,·] · c_i[·,p]. -/
def coefUser (oh : Vec Ideal ⟨2, ![1024, 100000]⟩ .f32) (ci : Vec Ideal ⟨2, ![100000, 16]⟩ .f32)
    (b : Fin 1024) (p : Fin 16) : EReal :=
  ∑ u : Fin 100000, oh (ix2 b u) * ci (ix2 u p)

/-- The utility of item n on trip b before masking. -/
def util (xu xi : Vec Ideal ⟨3, ![1024, 1000, 16]⟩ .f32) (oh : Vec Ideal ⟨2, ![1024, 100000]⟩ .f32)
    (cu : Vec Ideal ⟨2, ![1000, 16]⟩ .f32) (ci : Vec Ideal ⟨2, ![100000, 16]⟩ .f32)
    (cb : Vec Ideal ⟨2, ![1000, 1]⟩ .f32) (b : Fin 1024) (n : Fin 1000) : EReal :=
  (∑ p : Fin 16, xu (ix3 b n p) * cu (ix2 n p))
    + (∑ p : Fin 16, xi (ix3 b n p) * coefUser oh ci b p)
    + cb (ix2 n 0)

/-- The fill value of an unavailable item. -/
abbrev fill : EReal := Ideal.ofBits .f32 0xE0AD78EC#32

/-- The masked utility table. -/
def G (xu xi : Vec Ideal ⟨3, ![1024, 1000, 16]⟩ .f32) (oh : Vec Ideal ⟨2, ![1024, 100000]⟩ .f32)
    (av : Vec Ideal ⟨2, ![1024, 1000]⟩ .i1)
    (cu : Vec Ideal ⟨2, ![1000, 16]⟩ .f32) (ci : Vec Ideal ⟨2, ![100000, 16]⟩ .f32)
    (cb : Vec Ideal ⟨2, ![1000, 1]⟩ .f32) : Vec Ideal ⟨2, ![1024, 1000]⟩ .f32 :=
  fun j => Scalar.select (av j) (util xu xi oh cu ci cb (j 0) (j 1)) fill

theorem G_apply (xu xi : Vec Ideal ⟨3, ![1024, 1000, 16]⟩ .f32) (oh : Vec Ideal ⟨2, ![1024, 100000]⟩ .f32)
    (av : Vec Ideal ⟨2, ![1024, 1000]⟩ .i1)
    (cu : Vec Ideal ⟨2, ![1000, 16]⟩ .f32) (ci : Vec Ideal ⟨2, ![100000, 16]⟩ .f32)
    (cb : Vec Ideal ⟨2, ![1000, 1]⟩ .f32) (b : Fin 1024) (n : Fin 1000) :
    G xu xi oh av cu ci cb (ix2 b n) = Scalar.select (av (ix2 b n)) (util xu xi oh cu ci cb b n) fill := rfl

end Cert.Spec

end
-- ==== Proof.Val0.lean ====
/-
  The first kernel's value.  The kernel accumulates a [16,1024] block over 25 grid points: at point t it reads
  slab t of x, a [25,16,4000] array, and rows 4000·t … 4000·t + 3999 of y, a [100000,1024] array; at point 0 it
  stores the product of the two blocks into the accumulator block and at every later point it adds the product to
  what the block holds; the block is written back to the [16,1024] result array once, after the last point.

  Here: what each case of the body leaves in the accumulator block (the product; what it held plus the product), what
  the two input blocks are as entries of their arrays, and, on the extended reals, by induction on the point, that
  entry (p, b) of the accumulator after point n is

      Σ_{k ≤ n} Σ_{u < 4000} x[k,p,u]·y[4000·k + u, b],

  so that the result array ends holding, at (p, b), the sum over all 25 blocks k and the 4000 users u of a block.
  Only the laws of a commutative monoid are used for the sums: nothing is assumed finite.
-/
import proofs.«105989_g88974542504030_cont_9to1c4b_294_19_alg».proof.Proof.KI.Frame0
import proofs.«105989_g88974542504030_cont_9to1c4b_294_19_alg».proof.Proof.Pay
import proofs.«105989_g88974542504030_cont_9to1c4b_294_19_alg».proof.Proof.Spec
import Idealize.ShloMosaic.Lib.Pipeline.Value
import Idealize.ShloMosaic.Lib.Tactic

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The product of two extended reals, with the type named: an entry of a buffer's contents has a type spelt through
    the buffer's own type, which only unfolds to the extended reals. The term it writes is the plain product. -/
local notation:70 x:70 " ⬝ " y:71 => HMul.hMul (α := EReal) (β := EReal) (γ := EReal) x y

section AnyValues
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the accumulator block is left holding the product of the two input blocks: the body's one
    store covers the block, and its loads read the whole input buffers. -/
theorem out_A (c : Dev nD) (i : grid0.Coords) (a1 : Memref sig .tc .vmem S1x16x4000 .f32) (h1 : a1.IsWhole) (a2 : Memref sig .tc .vmem S4000x1024 .f32) (h2 : a2.IsWhole) (a3 : Memref sig .tc .vmem S16x1024 .f32) (h3 : a3.IsWhole) (hc1 : k0_cond1 i = 1#1) (hc2 : ¬k0_cond2 i = 1#1) (x0 : Vec F S1x16x4000 .f32) (x1 : Vec F S4000x1024 .f32) :
    out0_A c i a1 h1 a2 h2 a3 h3 hc1 hc2 x0 x1 = k0_pay1 x0 x1 := by
  unfold out0_A
  rw [View.read_writes_eq_canon _ _ _ (cover0_A c i a1 h1 a2 h2 a3 h3 hc1 hc2 x0 x1)]
  unfold kernelRun0_A
  dsimp only
  rw [View.canon_unit_zero hz2]
  simp only [View.readAt_eq_ld, h1.read_unread, h2.read_unread, View.ld_unit_zero (S := S1x16x4000) hz3,
    View.ld_unit_zero (S := S4000x1024) hz2]

/-- At a later point the accumulator block, holding xo, is left holding xo plus the product of the two input blocks. -/
theorem out_B (c : Dev nD) (i : grid0.Coords) (a1 : Memref sig .tc .vmem S1x16x4000 .f32) (h1 : a1.IsWhole) (a2 : Memref sig .tc .vmem S4000x1024 .f32) (h2 : a2.IsWhole) (a3 : Memref sig .tc .vmem S16x1024 .f32) (h3 : a3.IsWhole) (hc1 : ¬k0_cond1 i = 1#1) (hc2 : k0_cond2 i = 1#1) (x0 : Vec F S1x16x4000 .f32) (x1 : Vec F S4000x1024 .f32) (xo : Vec F S16x1024 .f32) :
    out0_B c i a1 h1 a2 h2 a3 h3 hc1 hc2 x0 x1 xo = k0_pay2 x0 x1 xo := by
  unfold out0_B
  rw [View.read_writes_eq_canon _ _ _ (cover0_B c i a1 h1 a2 h2 a3 h3 hc1 hc2 x0 x1 xo)]
  unfold kernelRun0_B
  dsimp only
  rw [View.canon_unit_zero hz2]
  simp only [View.readAt_eq_ld, h1.read_unread, h2.read_unread, h3.read_unread, View.ld_unit_zero (S := S1x16x4000) hz3,
    View.ld_unit_zero (S := S4000x1024) hz2, View.ld_unit_zero (S := S16x1024) hz2]

end AnyValues

section Blocks
variable {F : FTy → Type} [FloatOps F]
variable (V : (c : Dev nD) → (b : Ref sig .tc) → Buf (Elt F) ((c : Thread nD τ).loc b))

/-- The first input's block index at point t is (t, 0, 0). -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The second input's block index at point t is (t, 0). -/
theorem index0_1 : ∀ t : Fin cfg0.N, win0_1.index t 0 = t.val ∧ win0_1.index t 1 = 0 :=
  (by decide +kernel : ∀ t : Fin grid0.N, win0_1.index t 0 = t.val ∧ win0_1.index t 1 = 0)

/-- The first input's block at point t is slab t of the [25,16,4000] array: entry (0, p, u) of the block is
    entry (t, p, u) of the array (a block's coordinate is index × size + the coordinate inside the block). -/
theorem blk0_apply (c : Dev nD) (t : Fin cfg0.N) (p : Fin 16) (u : Fin 4000) :
    (iblk0 V c 0 t : Vec F S1x16x4000 .f32) (ix3 (0 : Fin 1) p u)
      = (V c main_v8 : Vec F S25x16x4000 .f32) (ix3 (⟨t.val, lt_of_lt_of_eq t.isLt N_0⟩ : Fin 25) p u) := by
  obtain ⟨i0, i1, i2⟩ := index0_0 t
  unfold iblk0
  rw [View.read_apply]
  show V c main_v8 _ = V c main_v8 _
  refine congrArg _ (funext fun a => Fin.ext ?_)
  match a with
  | ⟨0, _⟩ => show win0_0.index t 0 * 1 + 1 * 0 = t.val; rw [i0]; omega
  | ⟨1, _⟩ => show win0_0.index t 1 * 16 + 1 * p.val = p.val; rw [i1]; omega
  | ⟨2, _⟩ => show win0_0.index t 2 * 4000 + 1 * u.val = u.val; rw [i2]; omega

/-- The second input's block at point t is rows 4000·t … 4000·t + 3999 of the [100000,1024] array. -/
theorem blk1_apply (c : Dev nD) (t : Fin cfg0.N) (u : Fin 4000) (b : Fin 1024) :
    (iblk0 V c 1 t : Vec F S4000x1024 .f32) (ix2 u b)
      = (V c main_v0 : Vec F S100000x1024 .f32) (ix2 (Cert.Spec.pos (⟨t.val, lt_of_lt_of_eq t.isLt N_0⟩ : Fin 25) u) b) := by
  obtain ⟨i0, i1⟩ := index0_1 t
  unfold iblk0
  rw [View.read_apply]
  show V c main_v0 _ = V c main_v0 _
  refine congrArg _ (funext fun a => Fin.ext ?_)
  match a with
  | ⟨0, _⟩ => show win0_1.index t 0 * 4000 + 1 * u.val = t.val * 4000 + u.val; rw [i0]; omega
  | ⟨1, _⟩ => show win0_1.index t 1 * 1024 + 1 * b.val = b.val; rw [i1]; omega

end Blocks

section AtIdeal
variable (V : (c : Dev nD) → (b : Ref sig .tc) → Buf (Elt Ideal) ((c : Thread nD τ).loc b))

/-- Block k's contribution to entry (p, b) of the product: the sum over the block's 4000 users of
    x[k,p,u]·y[4000·k + u, b]; zero for k beyond the 25 blocks. -/
def term (c : Dev nD) (p : Fin 16) (b : Fin 1024) (k : ℕ) : EReal :=
  if h : k < 25 then
    ∑ u : Fin 4000, (V c main_v8 : Vec Ideal S25x16x4000 .f32) (ix3 (⟨k, h⟩ : Fin 25) p u)
      ⬝ (V c main_v0 : Vec Ideal S100000x1024 .f32) (ix2 (Cert.Spec.pos ⟨k, h⟩ u) b)
  else 0

/-- The product of the two input blocks at point t, at (p, b), is block t's contribution. -/
theorem step_sum (c : Dev nD) (t : Fin cfg0.N) (p : Fin 16) (b : Fin 1024) :
    ∑ u : Fin 4000, (iblk0 V c 0 t : Vec Ideal S1x16x4000 .f32) (ix3 (0 : Fin 1) p u)
        ⬝ (iblk0 V c 1 t : Vec Ideal S4000x1024 .f32) (ix2 u b)
      = term V c p b t.val := by
  unfold term
  rw [dif_pos (lt_of_lt_of_eq t.isLt N_0)]
  exact Finset.sum_congr rfl fun u _ => by rw [blk0_apply, blk1_apply]

/-- The accumulator block after point n, at (p, b), is the sum of the contributions of blocks 0 … n: by induction on
    the point (after point 0 the product there; after point n+1 what it held plus the product there). -/
theorem outsAt_apply (c : Dev nD) (p : Fin 16) (b : Fin 1024) :
    ∀ (n : ℕ) (h : n < cfg0.N), outsAt0 V c n h (ix2 p b) = ∑ k ∈ Finset.range (n + 1), term V c p b k
  | 0, h =>
    (congrFun ((outsAt0_A V c ⟨0, h⟩ rfl).trans (out_A ..)) (ix2 p b)).trans <|
      (Pay.pay1_apply _ _ p b).trans <| (step_sum V c ⟨0, h⟩ p b).trans (Finset.sum_range_one _).symm
  | n + 1, h => by
    refine (congrFun ((outsAt0_B V c ⟨n + 1, h⟩ (Nat.succ_ne_zero n)).trans (out_B ..)) (ix2 p b)).trans ?_
    refine (Pay.pay2_apply _ _ _ p b).trans ?_
    rw [Finset.sum_range_succ _ (n + 1), ← outsAt_apply c p b n (Nat.lt_of_succ_lt h)]
    exact congrArg (_ + ·) (step_sum V c ⟨n + 1, h⟩ p b)

/-- The 25 contributions, summed over the blocks. -/
theorem sum_terms (c : Dev nD) (p : Fin 16) (b : Fin 1024) :
    ∑ k ∈ Finset.range 25, term V c p b k
      = ∑ k : Fin 25, ∑ u : Fin 4000, (V c main_v8 : Vec Ideal S25x16x4000 .f32) (ix3 k p u)
          ⬝ (V c main_v0 : Vec Ideal S100000x1024 .f32) (ix2 (Cert.Spec.pos k u) b) := by
  rw [Finset.sum_range]
  exact Finset.sum_congr rfl fun k _ => by unfold term; rw [dif_pos k.isLt]

end AtIdeal

section Final
variable {F : FTy → Type} [FloatOps F]
variable (V : (c : Dev nD) → (b : Ref sig .tc) → Buf (Elt F) ((c : Thread nD τ).loc b))

/-- The last of the 25 points. -/
abbrev tLast : Fin cfg0.N := ⟨24, by rw [show cfg0.N = 25 from N_0]; decide⟩

/-- The accumulator after the last point, as contents of the [16,1024] result array (its one block is the array). -/
abbrev result (c : Dev nD) : Buf (Elt F) ((c : Thread nD τ).loc main_v9) := outsAt0 V c 24 tLast.isLt

/-- The one write-back, after the last point, writes it: block (0, 0) of the array read through zero offsets is
    the array. -/
theorem flushed_eq (c : Dev nD) (t : Fin cfg0.N) (hf : (cfg0.win 2).flush t = true) :
    (dat0 V c).flushed 2 t = ((cfg0.win 2).blk t).view.read (Elt F) (result V c) := by
  have hN : cfg0.N = 25 := N_0
  have h24 : t.val = 24 := by have := (flush0_2 t).mp hf; have := t.isLt; omega
  obtain rfl : t = tLast := Fin.ext h24
  show (cfg0.win 2).cut (grid0.coords tLast) ((dat0 V c).after 2 tLast) = _
  rw [after0_2]
  have hz' : (fun a => win0_2.index tLast a * main_v9.ty.shape.size a) = fun _ => 0 :=
    funext fun a => by fin_cases a <;> decide +kernel
  exact (Memref.read_access_unit_zero (Elt F) main_v9 hz' (fun a => by rw [congrFun hz' a]; simp) (result V c)).symm

/-- So the result array ends holding the accumulator after the last point: that point's block covers the array. -/
theorem final0 (c : Dev nD) : (dat0 V c).arrAt 2 cfg0.N = result V c :=
  (dat0 V c).arrAt_eq_of_cover 2 (result V c) (flushed_eq V c) fun i =>
    ⟨tLast, (flush0_2 tLast).mpr rfl, by
      show i ∈ ((View.whole main_v9).slice (win0_2.rect tLast)).set
      rw [View.set_slice_whole, Rect.mem_set_unit]
      intro a
      have h0 : (i 0 : Nat) < 16 := (i 0).isLt
      have h1 : (i 1 : Nat) < 1024 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 16 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1024 from by decide +kernel]; omega⟩

end Final

section FinalIdeal
variable (V : (c : Dev nD) → (b : Ref sig .tc) → Buf (Elt Ideal) ((c : Thread nD τ).loc b))

/-- The first kernel's value: entry (p, b) of its [16,1024] result array ends at the sum, over the 25 blocks k and
    the 4000 users u of a block, of x[k,p,u]·y[4000·k + u, b]. -/
theorem final0_apply (c : Dev nD) (p : Fin 16) (b : Fin 1024) :
    ((dat0 V c).arrAt 2 cfg0.N : Vec Ideal S16x1024 .f32) (ix2 p b)
      = ∑ k : Fin 25, ∑ u : Fin 4000, (V c main_v8 : Vec Ideal S25x16x4000 .f32) (ix3 k p u)
          ⬝ (V c main_v0 : Vec Ideal S100000x1024 .f32) (ix2 (Cert.Spec.pos k u) b) := by
  rw [final0]
  exact (outsAt_apply V c p b 24 _).trans (sum_terms V c p b)

end FinalIdeal

end Cert.KernelIdeal.Val0

end
-- ==== Proof.Val1.lean ====
/-
  The second kernel's value.  Grid point t holds items 40t … 40t+39: every point stores, into its [40,1024] block of
  the result, the masked utility of its six input blocks, and the 25 blocks tile the [1000,1024] result.  So the
  result array ends holding, at item n and trip b, the masked utility of the arrays the region finds, read at (n, b).
-/
import proofs.«105989_g88974542504030_cont_9to1c4b_294_19_alg».proof.Proof.KI.Frame1
import proofs.«105989_g88974542504030_cont_9to1c4b_294_19_alg».proof.Proof.Pay
import Idealize.ShloMosaic.Lib.Pipeline.Value
import Idealize.ShloMosaic.Lib.Tactic

set_option maxRecDepth 16384

noncomputable section

namespace Cert.KernelIdeal.Val1

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section AnyValues
variable {F : FTy → Type} [FloatOps F]

/-- What the body leaves in the output block is the utility block of the six input blocks: its one covering store's
    payload, whose loads read the whole buffers. -/
theorem out1_eq (c : Dev nD) (i : grid1.Coords) (a1 : Memref sig .tc .vmem S40x16x1024 .f32) (h1 : a1.IsWhole) (a2 : Memref sig .tc .vmem S40x16x1024 .f32) (h2 : a2.IsWhole) (a3 : Memref sig .tc .vmem S40x16x1 .f32) (h3 : a3.IsWhole) (a4 : Memref sig .tc .vmem S16x1024 .f32) (h4 : a4.IsWhole) (a5 : Memref sig .tc .vmem S40x1x1 .f32) (h5 : a5.IsWhole) (a6 : Memref sig .tc .vmem S40x1024 .i32) (h6 : a6.IsWhole) (a7 : Memref sig .tc .vmem S40x1024 .f32) (h7 : a7.IsWhole)
    (x0 x1 : Vec F S40x16x1024 .f32) (x2 : Vec F S40x16x1 .f32) (x3 : Vec F S16x1024 .f32) (x4 : Vec F S40x1x1 .f32) (x5 : Vec F S40x1024 .i32) :
    out1 c i a1 h1 a2 h2 a3 h3 a4 h4 a5 h5 a6 h6 a7 h7 x0 x1 x2 x3 x4 x5 = k1_pay1 x0 x2 x1 x3 x4 x5 := by
  unfold out1
  rw [View.read_writes_eq_canon _ _ _ (cover1 c i a1 h1 a2 h2 a3 h3 a4 h4 a5 h5 a6 h6 a7 h7 x0 x1 x2 x3 x4 x5)]
  unfold kernelRun1
  dsimp only
  rw [View.canon_unit_zero hz2]
  simp only [View.readAt_eq_ld, h1.read_unread, h2.read_unread, h3.read_unread, h4.read_unread, h5.read_unread, h6.read_unread,
    View.ld_unit_zero (S := S40x16x1024) hz3, View.ld_unit_zero (S := S40x16x1) hz3, View.ld_unit_zero (S := S16x1024) hz2,
    View.ld_unit_zero (S := S40x1x1) hz3, View.ld_unit_zero (S := S40x1024) hz2]

end AnyValues

/-! ## Where each window's block sits in its array -/

/-- The printed index maps, decided once over the 25 grid points: every window that moves steps one block along
    the items per point; the user-coefficient window never moves. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

section AtIdeal
variable (V : (c : Dev nD) → (b : Ref sig .tc) → Buf (Elt Ideal) ((c : Thread nD τ).loc b))

/-- Item block t of the first feature array: its entry (n', p, b) is the array's entry (40t + n', p, b). -/
theorem iblk1_0_apply (c : Dev nD) (t : Fin cfg1.N) (n' : Fin 40) (p : Fin 16) (b : Fin 1024) (n : Fin 1000)
    (hn : n.val = 40 * t.val + n'.val) :
    (iblk1 V c 0 t : Vec Ideal S40x16x1024 .f32) (ix3 n' p b) = (V c main_v1 : S1000x16x1024.Idx → EReal) (ix3 n p b) := by
  obtain ⟨e0, e1, e2, -⟩ := idx_facts t
  unfold iblk1
  rw [View.read_apply]
  show V c main_v1 _ = V c main_v1 _
  congr 1
  funext a
  apply Fin.ext
  match a with
  | ⟨0, _⟩ => show win1_0.index t (0 : Fin 3) * 40 + 1 * n'.val = n.val; rw [e0, hn]; omega
  | ⟨1, _⟩ => show win1_0.index t (1 : Fin 3) * 16 + 1 * p.val = p.val; rw [e1]; omega
  | ⟨2, _⟩ => show win1_0.index t (2 : Fin 3) * 1024 + 1 * b.val = b.val; rw [e2]; omega

/-- Item block t of the second feature array likewise. -/
theorem iblk1_1_apply (c : Dev nD) (t : Fin cfg1.N) (n' : Fin 40) (p : Fin 16) (b : Fin 1024) (n : Fin 1000)
    (hn : n.val = 40 * t.val + n'.val) :
    (iblk1 V c 1 t : Vec Ideal S40x16x1024 .f32) (ix3 n' p b) = (V c main_v2 : S1000x16x1024.Idx → EReal) (ix3 n p b) := by
  obtain ⟨-, -, -, e0, e1, e2, -⟩ := idx_facts t
  unfold iblk1
  rw [View.read_apply]
  show V c main_v2 _ = V c main_v2 _
  congr 1
  funext a
  apply Fin.ext
  match a with
  | ⟨0, _⟩ => show win1_1.index t (0 : Fin 3) * 40 + 1 * n'.val = n.val; rw [e0, hn]; omega
  | ⟨1, _⟩ => show win1_1.index t (1 : Fin 3) * 16 + 1 * p.val = p.val; rw [e1]; omega
  | ⟨2, _⟩ => show win1_1.index t (2 : Fin 3) * 1024 + 1 * b.val = b.val; rw [e2]; omega

/-- Item block t of the item coefficients: its entry (n', p, 0) is the array's entry (40t + n', p, 0). -/
theorem iblk1_2_apply (c : Dev nD) (t : Fin cfg1.N) (n' : Fin 40) (p : Fin 16) (n : Fin 1000)
    (hn : n.val = 40 * t.val + n'.val) :
    (iblk1 V c 2 t : Vec Ideal S40x16x1 .f32) (ix3 n' p (0 : Fin 1)) = (V c main_v4 : S1000x16x1.Idx → EReal) (ix3 n p (0 : Fin 1)) := by
  obtain ⟨-, -, -, -, -, -, e0, e1, e2, -⟩ := idx_facts t
  unfold iblk1
  rw [View.read_apply]
  show V c main_v4 _ = V c main_v4 _
  congr 1
  funext a
  apply Fin.ext
  match a with
  | ⟨0, _⟩ => show win1_2.index t (0 : Fin 3) * 40 + 1 * n'.val = n.val; rw [e0, hn]; omega
  | ⟨1, _⟩ => show win1_2.index t (1 : Fin 3) * 16 + 1 * p.val = p.val; rw [e1]; omega
  | ⟨2, _⟩ => show win1_2.index t (2 : Fin 3) * 1 + 1 * 0 = 0; rw [e2]

/-- The user coefficients' window is the whole array at every point. -/
theorem iblk1_3_apply (c : Dev nD) (t : Fin cfg1.N) (p : Fin 16) (b : Fin 1024) :
    (iblk1 V c 3 t : Vec Ideal S16x1024 .f32) (ix2 p b) = (V c main_v9 : S16x1024.Idx → EReal) (ix2 p b) := by
  obtain ⟨-, -, -, -, -, -, -, -, -, e0, e1, -⟩ := idx_facts t
  unfold iblk1
  rw [View.read_apply]
  show V c main_v9 _ = V c main_v9 _
  congr 1
  funext a
  apply Fin.ext
  match a with
  | ⟨0, _⟩ => show win1_3.index t (0 : Fin 2) * 16 + 1 * p.val = p.val; rw [e0]; omega
  | ⟨1, _⟩ => show win1_3.index t (1 : Fin 2) * 1024 + 1 * b.val = b.val; rw [e1]; omega

/-- Item block t of the item constants: its entry (n', 0, 0) is the array's entry (40t + n', 0, 0). -/
theorem iblk1_4_apply (c : Dev nD) (t : Fin cfg1.N) (n' : Fin 40) (n : Fin 1000)
    (hn : n.val = 40 * t.val + n'.val) :
    (iblk1 V c 4 t : Vec Ideal S40x1x1 .f32) (ix3 n' (0 : Fin 1) (0 : Fin 1)) = (V c main_v5 : S1000x1x1.Idx → EReal) (ix3 n (0 : Fin 1) (0 : Fin 1)) := by
  obtain ⟨-, -, -, -, -, -, -, -, -, -, -, e0, e1, e2, -⟩ := idx_facts t
  unfold iblk1
  rw [View.read_apply]
  show V c main_v5 _ = V c main_v5 _
  congr 1
  funext a
  apply Fin.ext
  match a with
  | ⟨0, _⟩ => show win1_4.index t (0 : Fin 3) * 40 + 1 * n'.val = n.val; rw [e0, hn]; omega
  | ⟨1, _⟩ => show win1_4.index t (1 : Fin 3) * 1 + 1 * 0 = 0; rw [e1]
  | ⟨2, _⟩ => show win1_4.index t (2 : Fin 3) * 1 + 1 * 0 = 0; rw [e2]

/-- Item block t of the availability words: its entry (n', b) is the array's entry (40t + n', b). -/
theorem iblk1_5_apply (c : Dev nD) (t : Fin cfg1.N) (n' : Fin 40) (b : Fin 1024) (n : Fin 1000)
    (hn : n.val = 40 * t.val + n'.val) :
    (iblk1 V c 5 t : Vec Ideal S40x1024 .i32) (ix2 n' b) = (V c main_v10 : S1000x1024.Idx → BitVec 32) (ix2 n b) := by
  obtain ⟨-, -, -, -, -, -, -, -, -, -, -, -, -, -, e0, e1, -⟩ := idx_facts t
  unfold iblk1
  rw [View.read_apply]
  show V c main_v10 _ = V c main_v10 _
  congr 1
  funext a
  apply Fin.ext
  match a with
  | ⟨0, _⟩ => show win1_5.index t (0 : Fin 2) * 40 + 1 * n'.val = n.val; rw [e0, hn]; omega
  | ⟨1, _⟩ => show win1_5.index t (1 : Fin 2) * 1024 + 1 * b.val = b.val; rw [e1]; omega

/-- Entry (n', b) of the output's block t is the result's entry (40t + n', b). -/
theorem emb6 (t : Fin cfg1.N) (n' : Fin 40) (b : Fin 1024) (n : Fin 1000) (hn : n.val = 40 * t.val + n'.val) :
    (((cfg1.win 6).blk t).view.emb (ix2 n' b) : S1000x1024.Idx) = ix2 n b := by
  obtain ⟨-, -, -, -, -, -, -, -, -, -, -, -, -, -, -, -, e0, e1⟩ := idx_facts t
  funext a
  apply Fin.ext
  match a with
  | ⟨0, _⟩ => show win1_6.index t (0 : Fin 2) * 40 + 1 * n'.val = n.val; rw [e0, hn]; omega
  | ⟨1, _⟩ => show win1_6.index t (1 : Fin 2) * 1024 + 1 * b.val = b.val; rw [e1]; omega

/-! ## The result as one function of the arrays the region finds -/

/-- The masked utility of item n on trip b, as a function of the six arrays the kernel reads: the two feature
    arrays, the item coefficients, the user coefficients, the item constants and the availability words. -/
def g1 (xu xi : S1000x16x1024.Idx → EReal) (cu : S1000x16x1.Idx → EReal) (cw : S16x1024.Idx → EReal)
    (cb : S1000x1x1.Idx → EReal) (av : S1000x1024.Idx → BitVec 32) (n : Fin 1000) (b : Fin 1024) : EReal :=
  Scalar.select (Scalar.cmpi .ne (av (ix2 n b)) 0#32)
    ((∑ p : Fin 16, (xu (ix3 n p b) * cu (ix3 n p 0) + xi (ix3 n p b) * cw (ix2 p b))) + cb (ix3 n 0 0))
    (Ideal.ofBits .f32 0xE0AD78EC#32)

theorem g1_apply (xu xi : S1000x16x1024.Idx → EReal) (cu : S1000x16x1.Idx → EReal) (cw : S16x1024.Idx → EReal)
    (cb : S1000x1x1.Idx → EReal) (av : S1000x1024.Idx → BitVec 32) (n : Fin 1000) (b : Fin 1024) :
    g1 xu xi cu cw cb av n b
      = Scalar.select (Scalar.cmpi .ne (av (ix2 n b)) 0#32)
          ((∑ p : Fin 16, (xu (ix3 n p b) * cu (ix3 n p 0) + xi (ix3 n p b) * cw (ix2 p b))) + cb (ix3 n 0 0))
          (Ideal.ofBits .f32 0xE0AD78EC#32) := rfl

/-- The same over the arrays as the region finds them, as contents of the result array. -/
def G1 (c : Dev nD) : Buf (Elt Ideal) ((c : Thread nD τ).loc main_v11) :=
  fun j => g1 (V c main_v1) (V c main_v2) (V c main_v4) (V c main_v9) (V c main_v5) (V c main_v10) (j 0) (j 1)

theorem G1_apply (c : Dev nD) (n : Fin 1000) (b : Fin 1024) :
    G1 V c (ix2 n b) = g1 (V c main_v1) (V c main_v2) (V c main_v4) (V c main_v9) (V c main_v5) (V c main_v10) n b := rfl

/-- What point t writes back is block t of that function. -/
theorem flushed1_eq (c : Dev nD) (t : Fin cfg1.N) :
    (dat1 V c).flushed 6 t = ((cfg1.win 6).blk t).view.read (Elt Ideal) (G1 V c) := by
  have hN : cfg1.N = 25 := N_1
  show (cfg1.win 6).cut (grid1.coords t) ((dat1 V c).after 6 t) = _
  rw [after1_6, out1_eq]
  funext j
  obtain ⟨n', b, rfl⟩ : ∃ (n' : Fin 40) (b : Fin 1024), j = ix2 n' b := ⟨j 0, j 1, eq_ix2 j⟩
  have ht : t.val < 25 := hN ▸ t.isLt
  obtain ⟨n, hn⟩ : ∃ n : Fin 1000, n.val = 40 * t.val + n'.val := ⟨⟨40 * t.val + n'.val, by have := n'.isLt; omega⟩, rfl⟩
  show k1_pay1 (F := Ideal) (iblk1 V c 0 t) (iblk1 V c 2 t) (iblk1 V c 1 t) (iblk1 V c 3 t) (iblk1 V c 4 t) (iblk1 V c 5 t) (ix2 n' b)
    = G1 V c (((cfg1.win 6).blk t).view.emb (ix2 n' b))
  rw [emb6 t n' b n hn, G1_apply]
  refine (Pay.util_apply _ _ _ _ _ _ n' b).trans ?_
  rw [g1_apply, iblk1_5_apply V c t n' b n hn, iblk1_4_apply V c t n' n hn]
  refine congrArg (fun s : EReal => Scalar.select _ (s + _) _) ?_
  refine Finset.sum_congr rfl fun p _ => ?_
  rw [iblk1_0_apply V c t n' p b n hn, iblk1_1_apply V c t n' p b n hn, iblk1_2_apply V c t n' p n hn, iblk1_3_apply V c t p b]

/-! ## The blocks tile the result -/

/-- An index of the result is in point t's block iff each coordinate is in the block's range on its axis. -/
theorem mem_blk6 (t : Fin cfg1.N) (i : S1000x1024.Idx) :
    i ∈ ((cfg1.win 6).blk t).view.set ↔ ∀ a : Fin 2, win1_6.index t a * S40x1024.size a ≤ (i a).val ∧ (i a).val < win1_6.index t a * S40x1024.size a + S40x1024.size a := by
  show i ∈ ((View.whole main_v11).slice (win1_6.rect t)).set ↔ _
  rw [View.set_slice_whole, Rect.mem_set_unit]
  exact Iff.rfl

/-- Item n is in the block of point n / 40, so the 25 blocks cover the result, and it ends holding the masked utility. -/
theorem final1 (c : Dev nD) : (dat1 V c).arrAt 6 cfg1.N = G1 V c :=
  (dat1 V c).arrAt_eq_of_cover 6 (G1 V c) (fun t _ => flushed1_eq V c t) fun i => by
    have hN : cfg1.N = 25 := N_1
    have hi0 : (i 0).val < 1000 := (i 0).isLt
    have hi1 : (i 1).val < 1024 := (i 1).isLt
    obtain ⟨t, ht⟩ : ∃ t : Fin cfg1.N, t.val = (i 0).val / 40 := ⟨⟨(i 0).val / 40, by rw [hN]; omega⟩, rfl⟩
    obtain ⟨-, -, -, -, -, -, -, -, -, -, -, -, -, -, -, -, e0, e1⟩ := idx_facts t
    refine ⟨t, flush1_6 t, (mem_blk6 t i).mpr fun a => ?_⟩
    match a with
    | ⟨0, _⟩ =>
      show win1_6.index t (0 : Fin 2) * 40 ≤ (i 0).val ∧ (i 0).val < win1_6.index t (0 : Fin 2) * 40 + 40
      rw [e0, ht]; omega
    | ⟨1, _⟩ =>
      show win1_6.index t (1 : Fin 2) * 1024 ≤ (i 1).val ∧ (i 1).val < win1_6.index t (1 : Fin 2) * 1024 + 1024
      rw [e1]; omega

/-- The result array after the run, entry by entry: the masked utility of item n on trip b. -/
theorem final1_apply (c : Dev nD) (n : Fin 1000) (b : Fin 1024) :
    (dat1 V c).arrAt 6 cfg1.N (ix2 n b)
      = g1 (V c main_v1) (V c main_v2) (V c main_v4) (V c main_v9) (V c main_v5) (V c main_v10) n b :=
  (congrFun (final1 V c) (ix2 n b)).trans (G1_apply V c n b)

end AtIdeal

end Cert.KernelIdeal.Val1

end
-- ==== Proof.Glue.lean ====
/-
  The host operations of the program around its two kernels, read at an index: four transposes of
  arguments and of the result, two broadcasts that append unit axes, and the re-blocking of the
  user coefficient table (transpose, reshape of the 100000 users into 25 blocks of 4000, exchange of
  the two leading axes).  Each lemma says which entry of the operand an entry of the result is.
-/
import proofs.«105989_g88974542504030_cont_9to1c4b_294_19_alg».proof.Proof.Gen.KernelIdeal
import proofs.«105989_g88974542504030_cont_9to1c4b_294_19_alg».proof.Proof.Spec
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Facts₀ Idealize.ShloMosaic Idealize.ShloMosaic.ValueIdx

variable {F : FTy → Type} [FloatOps F]

/-- The one-hot table transposed: entry (u, b) is entry (b, u) of the operand. -/
theorem onehotT_apply (x : Vec F S1024x100000 .f32) (u : Fin 100000) (b : Fin 1024) :
    transpose S100000x1024 [1, 0] x transposes_S1024x100000_S100000x1024_1_0 (ix2 u b) = x (ix2 b u) :=
  transpose_ix2_apply x _ u b

/-- A feature array with the trip axis moved last: entry (n, p, b) is entry (b, n, p) of the operand. -/
theorem xT_apply (x : Vec F S1024x1000x16 .f32) (n : Fin 1000) (p : Fin 16) (b : Fin 1024) :
    transpose S1000x16x1024 [1, 2, 0] x transposes_S1024x1000x16_S1000x16x1024_1_2_0 (ix3 n p b) = x (ix3 b n p) :=
  transpose_apply _ x _ _ _ fun c => match c with | ⟨0, _⟩ => rfl | ⟨1, _⟩ => rfl | ⟨2, _⟩ => rfl

/-- The availability table transposed: entry (n, b) is entry (b, n) of the operand. -/
theorem availT_apply (x : Vec F S1024x1000 .i1) (n : Fin 1000) (b : Fin 1024) :
    transpose S1000x1024 [1, 0] x transposes_S1024x1000_S1000x1024_1_0 (ix2 n b) = x (ix2 b n) :=
  transpose_ix2_apply x _ n b

/-- The item coefficient table with a unit axis appended: entry (n, p, 0) is entry (n, p) of the operand. -/
theorem coefU3_apply (x : Vec F S1000x16 .f32) (n : Fin 1000) (p : Fin 16) :
    broadcastInDim S1000x16x1 ![0, 1] bcast_S1000x16_S1000x16x1_0_1 x (ix3 n p 0) = x (ix2 n p) :=
  broadcastInDim_apply _ bcast_S1000x16_S1000x16x1_0_1 x _ _ fun a => match a with
    | ⟨0, _⟩ => by show n.val = if (1000 : Nat) = 1 then 0 else n.val; rw [if_neg (by decide)]
    | ⟨1, _⟩ => by show p.val = if (16 : Nat) = 1 then 0 else p.val; rw [if_neg (by decide)]

/-- The intercept column with a unit axis appended: entry (n, 0, 0) is entry (n, 0) of the operand. -/
theorem icept3_apply (x : Vec F S1000x1 .f32) (n : Fin 1000) :
    broadcastInDim S1000x1x1 ![0, 1] bcast_S1000x1_S1000x1x1_0_1 x (ix3 n 0 0) = x (ix2 n 0) :=
  broadcastInDim_apply _ bcast_S1000x1_S1000x1x1_0_1 x _ _ fun a => match a with
    | ⟨0, _⟩ => by show n.val = if (1000 : Nat) = 1 then 0 else n.val; rw [if_neg (by decide)]
    | ⟨1, _⟩ => by show 0 = if (1 : Nat) = 1 then 0 else 0; rw [if_pos rfl]

/-- The user coefficient table in blocks: entry (k, p, u) of the re-blocked table is entry (k·4000 + u, p) of the
    operand.  The transposed table holds (p, v) at row-major position p·100000 + v; the reshape to 16×25×4000 holds at
    (p, k, u) the entry at position (p·25 + k)·4000 + u = p·100000 + (k·4000 + u); the last transpose exchanges p and k. -/
theorem chunks_apply (x : Vec F S100000x16 .f32) (k : Fin 25) (p : Fin 16) (u : Fin 4000) :
    transpose S25x16x4000 [1, 0, 2] (shapeCast S16x25x4000 (transpose S16x100000 [1, 0] x transposes_S100000x16_S16x100000_1_0) shapeCasts_S16x100000_S16x25x4000) transposes_S16x25x4000_S25x16x4000_1_0_2 (ix3 k p u) = x (ix2 (Cert.Spec.pos k u) p) := by
  refine (transpose_apply _ _ transposes_S16x25x4000_S25x16x4000_1_0_2 (ix3 k p u) (ix3 p k u)
    fun c => match c with | ⟨0, _⟩ => rfl | ⟨1, _⟩ => rfl | ⟨2, _⟩ => rfl).trans ?_
  refine (shapeCast_apply _ shapeCasts_S16x100000_S16x25x4000 (ix3 p k u) (ix2 p (Cert.Spec.pos k u)) ?_).trans ?_
  · rw [Shape.rowMajor_val_two, Shape.rowMajor_val_three]
    show p.val * 100000 + (k.val * 4000 + u.val) = (p.val * 25 + k.val) * 4000 + u.val
    omega
  · exact transpose_ix2_apply x _ p (Cert.Spec.pos k u)

/-- The result transposed back: entry (b, n) is entry (n, b) of the operand. -/
theorem outT_apply (x : Vec F S1000x1024 .f32) (b : Fin 1024) (n : Fin 1000) :
    transpose S1024x1000 [1, 0] x transposes_S1000x1024_S1024x1000_1_0 (ix2 b n) = x (ix2 n b) :=
  transpose_ix2_apply x _ b n

end Cert.KernelIdeal.Glue

end
-- ==== Proof.Host.lean ====
/-
  The host stretches of the program read as values, for any contents of the buffers before the stretch: each buffer a
  stretch writes holds the operations' term of the buffers the stretch read, each buffer it does not write is
  unchanged; and the same read at an index, entry by entry.
-/
import proofs.«105989_g88974542504030_cont_9to1c4b_294_19_alg».proof.Proof.Gen.KernelIdeal.Launch
import proofs.«105989_g88974542504030_cont_9to1c4b_294_19_alg».proof.Proof.Gen.KernelIdeal.Regions
import Idealize.ShloMosaic.Lib.StableHlo.Run
import proofs.«105989_g88974542504030_cont_9to1c4b_294_19_alg».proof.Proof.Glue

noncomputable section

namespace Cert.KernelIdeal.Host

open Cert.KernelIdeal Cert.KernelIdeal.Gen Idealize.ShloMosaic Idealize.ShloMosaic.TcCoe Idealize.ShloMosaic.StableHlo Idealize.ShloMosaic.ValueIdx

variable {F : FTy → Type} [FloatOps F] (W : Valuation τ sig (Elt F))

/-! ## What each stretch leaves in the buffers it writes -/

theorem host0_v0 : (StableHlo.after hostOps0 W (Proc.devRef .tc main_v0) : Vec F S100000x1024 .f32) = transpose S100000x1024 [1, 0] (W (Proc.devRef .tc main_arg2)) transposes_S1024x100000_S100000x1024_1_0 := by
  show StableHlo.after hostOps0 W (Proc.devRef .tc main_v0) = _
  after_results

theorem host0_v1 : (StableHlo.after hostOps0 W (Proc.devRef .tc main_v1) : Vec F S1000x16x1024 .f32) = transpose S1000x16x1024 [1, 2, 0] (W (Proc.devRef .tc main_arg0)) transposes_S1024x1000x16_S1000x16x1024_1_2_0 := by
  show StableHlo.after hostOps0 W (Proc.devRef .tc main_v1) = _
  after_results

theorem host0_v2 : (StableHlo.after hostOps0 W (Proc.devRef .tc main_v2) : Vec F S1000x16x1024 .f32) = transpose S1000x16x1024 [1, 2, 0] (W (Proc.devRef .tc main_arg1)) transposes_S1024x1000x16_S1000x16x1024_1_2_0 := by
  show StableHlo.after hostOps0 W (Proc.devRef .tc main_v2) = _
  after_results

theorem host0_v3 : (StableHlo.after hostOps0 W (Proc.devRef .tc main_v3) : Vec F S1000x1024 .i1) = transpose S1000x1024 [1, 0] (W (Proc.devRef .tc main_arg3)) transposes_S1024x1000_S1000x1024_1_0 := by
  show StableHlo.after hostOps0 W (Proc.devRef .tc main_v3) = _
  after_results

theorem host0_v4 : (StableHlo.after hostOps0 W (Proc.devRef .tc main_v4) : Vec F S1000x16x1 .f32) = broadcastInDim S1000x16x1 ![0, 1] bcast_S1000x16_S1000x16x1_0_1 (W (Proc.devRef .tc main_arg4)) := by
  show StableHlo.after hostOps0 W (Proc.devRef .tc main_v4) = _
  after_results

theorem host0_v5 : (StableHlo.after hostOps0 W (Proc.devRef .tc main_v5) : Vec F S1000x1x1 .f32) = broadcastInDim S1000x1x1 ![0, 1] bcast_S1000x1_S1000x1x1_0_1 (W (Proc.devRef .tc main_arg6)) := by
  show StableHlo.after hostOps0 W (Proc.devRef .tc main_v5) = _
  after_results

theorem host0_v8 : (StableHlo.after hostOps0 W (Proc.devRef .tc main_v8) : Vec F S25x16x4000 .f32) = transpose S25x16x4000 [1, 0, 2] (shapeCast S16x25x4000 (transpose S16x100000 [1, 0] (W (Proc.devRef .tc main_arg5)) transposes_S100000x16_S16x100000_1_0) shapeCasts_S16x100000_S16x25x4000) transposes_S16x25x4000_S25x16x4000_1_0_2 := by
  show StableHlo.after hostOps0 W (Proc.devRef .tc main_v8) = _
  after_results
  rfl

theorem host1_v10 : (StableHlo.after hostOps1 W (Proc.devRef .tc main_v10) : Vec F S1000x1024 .i32) = extui 32 (W (Proc.devRef .tc main_v3)) natLt_1_32 := by
  show StableHlo.after hostOps1 W (Proc.devRef .tc main_v10) = _
  after_results

theorem host2_v12 : (StableHlo.after hostOps2 W (Proc.devRef .tc main_v12) : Vec F S1024x1000 .f32) = transpose S1024x1000 [1, 0] (W (Proc.devRef .tc main_v11)) transposes_S1000x1024_S1024x1000_1_0 := by
  show StableHlo.after hostOps2 W (Proc.devRef .tc main_v12) = _
  after_results

/-! ## What each stretch does not touch -/

theorem host0_of (r : Ref sig .tc) (h : r ∉ hostOps0_W) : StableHlo.after hostOps0 W (Proc.devRef .tc r) = W (Proc.devRef .tc r) :=
  StableHlo.after_of_writes_sub hostOps0 _ hostOps0_writes h

theorem host1_of (r : Ref sig .tc) (h : r ∉ hostOps1_W) : StableHlo.after hostOps1 W (Proc.devRef .tc r) = W (Proc.devRef .tc r) :=
  StableHlo.after_of_writes_sub hostOps1 _ hostOps1_writes h

theorem host2_of (r : Ref sig .tc) (h : r ∉ hostOps2_W) : StableHlo.after hostOps2 W (Proc.devRef .tc r) = W (Proc.devRef .tc r) :=
  StableHlo.after_of_writes_sub hostOps2 _ hostOps2_writes h

/-! ## The written buffers read at an index -/

theorem host0_v0_apply (u : Fin 100000) (b : Fin 1024) :
    (StableHlo.after hostOps0 W (Proc.devRef .tc main_v0) : Vec F S100000x1024 .f32) (ix2 u b) = (W (Proc.devRef .tc main_arg2) : Vec F S1024x100000 .f32) (ix2 b u) :=
  (congrFun (host0_v0 W) _).trans (Glue.onehotT_apply _ u b)

theorem host0_v1_apply (n : Fin 1000) (p : Fin 16) (b : Fin 1024) :
    (StableHlo.after hostOps0 W (Proc.devRef .tc main_v1) : Vec F S1000x16x1024 .f32) (ix3 n p b) = (W (Proc.devRef .tc main_arg0) : Vec F S1024x1000x16 .f32) (ix3 b n p) :=
  (congrFun (host0_v1 W) _).trans (Glue.xT_apply _ n p b)

theorem host0_v2_apply (n : Fin 1000) (p : Fin 16) (b : Fin 1024) :
    (StableHlo.after hostOps0 W (Proc.devRef .tc main_v2) : Vec F S1000x16x1024 .f32) (ix3 n p b) = (W (Proc.devRef .tc main_arg1) : Vec F S1024x1000x16 .f32) (ix3 b n p) :=
  (congrFun (host0_v2 W) _).trans (Glue.xT_apply _ n p b)

theorem host0_v3_apply (n : Fin 1000) (b : Fin 1024) :
    (StableHlo.after hostOps0 W (Proc.devRef .tc main_v3) : Vec F S1000x1024 .i1) (ix2 n b) = (W (Proc.devRef .tc main_arg3) : Vec F S1024x1000 .i1) (ix2 b n) :=
  (congrFun (host0_v3 W) _).trans (Glue.availT_apply _ n b)

theorem host0_v4_apply (n : Fin 1000) (p : Fin 16) :
    (StableHlo.after hostOps0 W (Proc.devRef .tc main_v4) : Vec F S1000x16x1 .f32) (ix3 n p 0) = (W (Proc.devRef .tc main_arg4) : Vec F S1000x16 .f32) (ix2 n p) :=
  (congrFun (host0_v4 W) _).trans (Glue.coefU3_apply _ n p)

theorem host0_v5_apply (n : Fin 1000) :
    (StableHlo.after hostOps0 W (Proc.devRef .tc main_v5) : Vec F S1000x1x1 .f32) (ix3 n 0 0) = (W (Proc.devRef .tc main_arg6) : Vec F S1000x1 .f32) (ix2 n 0) :=
  (congrFun (host0_v5 W) _).trans (Glue.icept3_apply _ n)

theorem host0_v8_apply (k : Fin 25) (p : Fin 16) (u : Fin 4000) :
    (StableHlo.after hostOps0 W (Proc.devRef .tc main_v8) : Vec F S25x16x4000 .f32) (ix3 k p u) = (W (Proc.devRef .tc main_arg5) : Vec F S100000x16 .f32) (ix2 (Cert.Spec.pos k u) p) :=
  (congrFun (host0_v8 W) _).trans (Glue.chunks_apply _ k p u)

theorem host1_v10_apply (n : Fin 1000) (b : Fin 1024) :
    (StableHlo.after hostOps1 W (Proc.devRef .tc main_v10) : Vec F S1000x1024 .i32) (ix2 n b) = ((W (Proc.devRef .tc main_v3) : Vec F S1000x1024 .i1) (ix2 n b)).setWidth 32 :=
  congrFun (host1_v10 W) _

theorem host2_v12_apply (b : Fin 1024) (n : Fin 1000) :
    (StableHlo.after hostOps2 W (Proc.devRef .tc main_v12) : Vec F S1024x1000 .f32) (ix2 b n) = (W (Proc.devRef .tc main_v11) : Vec F S1000x1024 .f32) (ix2 n b) :=
  (congrFun (host2_v12 W) _).trans (Glue.outT_apply _ b n)

end Cert.KernelIdeal.Host

end
-- ==== Proof.Bridge.lean ====
/-
  Pure algebra on the extended reals that connects the blocked form of the computation to the
  specification.

  * A sum over the 100000 = 25·4000 user positions taken block by block (25 consecutive blocks of
    4000) is the whole sum.
  * Σ_p (a_p + b_p) = Σ_p a_p + Σ_p b_p, so the two contractions over the 16 features may be
    accumulated in one pass.
  * For a one-bit word v, the test "v widened to 32 bits is not zero" is v itself, so masking by the
    test is masking by the bit.
-/
import proofs.«105989_g88974542504030_cont_9to1c4b_294_19_alg».proof.Proof.Spec
import Mathlib.Algebra.BigOperators.Fin
import Mathlib.Logic.Equiv.Fin.Basic

noncomputable section

namespace Cert.Bridge

open Idealize.ShloMosaic Idealize.ShloMosaic.ValueIdx Cert.Spec

/-- In an additive commutative monoid, a sum over the 100000 positions is the sum over the 25 blocks of
    the sums over the 4000 positions of each block. -/
theorem sum_blocks {M : Type} [AddCommMonoid M] (f : Fin 100000 → M) :
    ∑ u : Fin 100000, f u = ∑ k : Fin 25, ∑ u : Fin 4000, f (pos k u) := by
  calc ∑ u : Fin 100000, f u
      = ∑ x : Fin 25 × Fin 4000, f (pos x.1 x.2) := by
        refine (Fintype.sum_equiv (finProdFinEquiv (m := 25) (n := 4000))
          (fun x => f (pos x.1 x.2)) f ?_).symm
        rintro ⟨k, u⟩
        congr 1
        apply Fin.ext
        simp only [pos, finProdFinEquiv_apply_val]
        omega
    _ = ∑ k : Fin 25, ∑ u : Fin 4000, f (pos k u) := Fintype.sum_prod_type' (fun k u => f (pos k u))

/-- The user's coefficient row, accumulated block by block with the factors in the other order. -/
theorem coefUser_blocks (oh : Vec Ideal ⟨2, ![1024, 100000]⟩ .f32) (ci : Vec Ideal ⟨2, ![100000, 16]⟩ .f32)
    (b : Fin 1024) (p : Fin 16) :
    coefUser oh ci b p = ∑ k : Fin 25, ∑ u : Fin 4000, ci (ix2 (pos k u) p) * oh (ix2 b (pos k u)) := by
  unfold coefUser
  rw [sum_blocks (fun u => oh (ix2 b u) * ci (ix2 u p))]
  refine Finset.sum_congr rfl fun k _ => Finset.sum_congr rfl fun u _ => ?_
  exact mul_comm _ _

/-- For a one-bit word, "widened to 32 bits it is not zero" is the word itself. -/
theorem cmpi_ne_setWidth_zero (v : BitVec 1) : Scalar.cmpi .ne (v.setWidth 32) 0#32 = v := by
  rcases BitVec.eq_zero_or_eq_one v with h | h <;> subst h <;> decide

theorem kernel_form (xu xi : Vec Ideal ⟨3, ![1024, 1000, 16]⟩ .f32) (oh : Vec Ideal ⟨2, ![1024, 100000]⟩ .f32) (av : Vec Ideal ⟨2, ![1024, 1000]⟩ .i1) (cu : Vec Ideal ⟨2, ![1000, 16]⟩ .f32) (ci : Vec Ideal ⟨2, ![100000, 16]⟩ .f32) (cb : Vec Ideal ⟨2, ![1000, 1]⟩ .f32)
    (cuT : Fin 16 → Fin 1024 → EReal) (h : ∀ p b, cuT p b = ∑ k : Fin 25, ∑ u : Fin 4000, ci (ix2 (pos k u) p) * oh (ix2 b (pos k u))) (b : Fin 1024) (n : Fin 1000) :
    Scalar.select (Scalar.cmpi .ne ((av (ix2 b n)).setWidth 32) 0#32)
        ((∑ p : Fin 16, (xu (ix3 b n p) * cu (ix2 n p) + xi (ix3 b n p) * cuT p b)) + cb (ix2 n 0)) fill
      = G xu xi oh av cu ci cb (ix2 b n) := by
  refine Eq.trans ?_ (G_apply xu xi oh av cu ci cb b n).symm
  have hc : Scalar.cmpi .ne ((av (ix2 b n)).setWidth 32) 0#32 = av (ix2 b n) := by
    generalize av (ix2 b n) = v
    exact cmpi_ne_setWidth_zero v
  have hv : (∑ p : Fin 16, (xu (ix3 b n p) * cu (ix2 n p) + xi (ix3 b n p) * cuT p b)) + cb (ix2 n 0)
      = util xu xi oh cu ci cb b n := by
    have hcu : ∀ p : Fin 16, cuT p b = coefUser oh ci b p := fun p => by
      rw [h p b, coefUser_blocks]
    unfold util
    rw [Finset.sum_add_distrib]
    simp only [hcu]
  rw [hc, hv]

end Cert.Bridge

end
-- ==== Proof.RefSide.lean ====
/-
  The reference side: the reference program's result, read entry by entry on the extended reals, is the
  specification G.  At trip b and item n the reference computes

    select(av[b,n], ((0 + Σ_p x_u[b,n,p]·c_u[n,p]) + (0 + Σ_p x_i[b,n,p]·(Σ_u onehot[b,u]·c_i[u,p]))) + (0 + Σ_{q<1} 1·c_0[n,0]), fill)

  and only the laws of a commutative monoid with one are used: 0 + x = x, 1·x = x, and a sum over one term is
  that term.  Nothing is assumed finite.  The fill word is never evaluated: both sides carry the same word.
-/
import proofs.«105989_g88974542504030_cont_9to1c4b_294_19_alg».proof.Proof.Gen.ReferenceIdeal.Read
import proofs.«105989_g88974542504030_cont_9to1c4b_294_19_alg».proof.Proof.Spec
import Idealize.ShloMosaic.Lib.IdealHost

noncomputable section

namespace Cert.RefSide

open Cert.ReferenceIdeal Cert.ReferenceIdeal.Read Idealize.ShloMosaic Idealize.ShloMosaic.ValueIdx

/-! ## The composed index functions, by coordinates -/

/-- The reduced axis put back as the third coordinate (first sum). -/
theorem idx_v4 (b : Fin 1024) (n : Fin 1000) (k : Fin 16) : idx_main_v4 (ix2 b n) k = ix3 b n k := by
  funext a; match a with | ⟨0, _⟩ => rfl | ⟨1, _⟩ => rfl | ⟨2, _⟩ => rfl

/-- The reduced axis put back as the third coordinate (second sum). -/
theorem idx_v10 (b : Fin 1024) (n : Fin 1000) (k : Fin 16) : idx_main_v10 (ix2 b n) k = ix3 b n k := by
  funext a; match a with | ⟨0, _⟩ => rfl | ⟨1, _⟩ => rfl | ⟨2, _⟩ => rfl

/-- The item coefficients broadcast along the trips read at (n, p). -/
theorem idx_cu (b : Fin 1024) (n : Fin 1000) (k : Fin 16) :
    idx_main_v1 (idx_main_v2 (ix3 b n k)) = ix2 n k := by
  funext a; match a with | ⟨0, _⟩ => rfl | ⟨1, _⟩ => rfl

/-- The left factor of the contraction, broadcast along the items, reads at (b, u). -/
theorem idx_oh (b : Fin 1024) (n : Fin 1000) (k : Fin 16) (u : Fin 100000) :
    lidx_main_v6 (idx_main_v7 (idx_main_v8 (ix3 b n k))) u = ix2 b u := by
  funext a; match a with | ⟨0, _⟩ => rfl | ⟨1, _⟩ => rfl

/-- The right factor of the contraction reads at (u, p). -/
theorem idx_ci (b : Fin 1024) (n : Fin 1000) (k : Fin 16) (u : Fin 100000) :
    ridx_main_v6 (idx_main_v7 (idx_main_v8 (ix3 b n k))) u = ix2 u k := by
  funext a; match a with | ⟨0, _⟩ => rfl | ⟨1, _⟩ => rfl

/-- The item constants broadcast along the trips read at (n, 0). -/
theorem idx_cb (b : Fin 1024) (n : Fin 1000) (q : Fin 1) :
    idx_main_v13 (idx_main_v14 (idx_main_v16 (ix2 b n) q)) = ix2 n (0 : Fin 1) := by
  funext a; match a with | ⟨0, _⟩ => rfl | ⟨1, _⟩ => rfl

/-! ## The reference is the specification -/

theorem ref_eq (x0 x1 : (⟨Cert.ReferenceIdeal.S1024x1000x16, .f32⟩ : BufTy).Contents (Elt Ideal)) (x2 : (⟨Cert.ReferenceIdeal.S1024x100000, .f32⟩ : BufTy).Contents (Elt Ideal)) (x3 : (⟨Cert.ReferenceIdeal.S1024x1000, .i1⟩ : BufTy).Contents (Elt Ideal)) (x4 : (⟨Cert.ReferenceIdeal.S1000x16, .f32⟩ : BufTy).Contents (Elt Ideal)) (x5 : (⟨Cert.ReferenceIdeal.S100000x16, .f32⟩ : BufTy).Contents (Elt Ideal)) (x6 : (⟨Cert.ReferenceIdeal.S1000x1, .f32⟩ : BufTy).Contents (Elt Ideal)) :
    Cert.ReferenceIdeal.Read.val_main_v18 (F := Ideal) x0 x1 x2 x3 x4 x5 x6 = Cert.Spec.G x0 x1 x2 x3 x4 x5 x6 := by
  funext j
  obtain ⟨b, n, rfl⟩ : ∃ (b : Fin 1024) (n : Fin 1000), j = ix2 b n := ⟨j 0, j 1, eq_ix2 j⟩
  -- the result at (b, n), one operation at a time, outermost first
  rw [Spec.G_apply, val_main_v18_apply, val_main_call0_v0_apply, val_main_cst_4_apply,
      val_main_v17_apply, val_main_v16_apply, val_main_cst_3_apply, val_main_v11_apply,
      val_main_v10_apply, val_main_cst_1_apply, val_main_v5_apply, val_main_v4_apply,
      val_main_cst_0_apply, val_main_v0_apply, val_main_cst_apply]
  -- the summands: products of broadcast operands, and the contraction over the users
  simp only [val_main_v15_apply, val_main_v12_apply, val_main_cst_2_apply, val_main_v14_apply,
      val_main_v13_apply, val_main_v9_apply, val_main_v8_apply, val_main_v7_apply, val_main_v6_apply,
      val_main_v3_apply, val_main_v2_apply, val_main_v1_apply]
  -- indices by coordinates; the words 0 and 1; 0 + x = x, 1 · x = x, a one-term sum is its term
  simp only [idx_v4, idx_v10, idx_cu, idx_oh, idx_ci, idx_cb, Ideal.ofBits_def, Ideal.addf_def,
      Ideal.mulf_def, Ideal.ofBits_zero_f32, Ideal.ofBits_one_f32, zero_add, one_mul, Fin.sum_univ_one]
  -- what is left is the specification's utility, unfolded
  rfl

end Cert.RefSide

end
-- ==== Proof.Assemble.lean ====
/-
  The kernel's program computes the specification, and so does the reference.

  The second pallas_call leaves, at item n and trip b, the masked sum Σ_p (x_u·c_u + x_i·coefT[p,b]) + c_0[n] of its
  input arrays; those arrays are the arguments transposed and re-chunked by the host lines, except coefT, which is
  what the first pallas_call left: the sum over the 25 blocks of 4000 users of c_i·onehot.  Taking the blocks
  together, splitting the sum of sums, and reading a one-bit word widened and compared with zero as the word
  itself, the final transpose holds the specification's table.  The reference's run ends at the same table, and the
  two memories agree on the arguments.
-/
import proofs.«105989_g88974542504030_cont_9to1c4b_294_19_alg».proof.Defs
import proofs.«105989_g88974542504030_cont_9to1c4b_294_19_alg».proof.Proof.K.Main
import proofs.«105989_g88974542504030_cont_9to1c4b_294_19_alg».proof.Proof.KI.Main
import proofs.«105989_g88974542504030_cont_9to1c4b_294_19_alg».proof.Proof.Val0
import proofs.«105989_g88974542504030_cont_9to1c4b_294_19_alg».proof.Proof.Val1
import proofs.«105989_g88974542504030_cont_9to1c4b_294_19_alg».proof.Proof.Host
import proofs.«105989_g88974542504030_cont_9to1c4b_294_19_alg».proof.Proof.Bridge
import proofs.«105989_g88974542504030_cont_9to1c4b_294_19_alg».proof.Proof.RefSide
import proofs.«105989_g88974542504030_cont_9to1c4b_294_19_alg».proof.Proof.Gen.Kernel
import proofs.«105989_g88974542504030_cont_9to1c4b_294_19_alg».proof.Proof.Gen.KernelIdeal
import proofs.«105989_g88974542504030_cont_9to1c4b_294_19_alg».proof.Proof.Gen.ReferenceIdeal
import proofs.«105989_g88974542504030_cont_9to1c4b_294_19_alg».proof.Proof.Gen.Pre_finite_inputs

noncomputable section

namespace Cert.Assemble

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg)

/-- The contraction over all 100000 users taken in 25 blocks of 4000, as a function of the two arrays. -/
def blockSum (ci : Vec Ideal ⟨2, ![100000, 16]⟩ .f32) (oh : Vec Ideal ⟨2, ![1024, 100000]⟩ .f32) (p : Fin 16) (b : Fin 1024) : EReal :=
  ∑ k : Fin 25, ∑ u : Fin 4000, ci (ix2 (Cert.Spec.pos k u) p) * oh (ix2 b (Cert.Spec.pos k u))

/-- What the first pallas_call leaves at (p, b): that contraction of the user coefficients with the one-hot table. -/
theorem coef_eq (c : Dev nD) (p : Fin 16) (b : Fin 1024) :
    (W2 m ρ c (Proc.devRef .tc main_v9) : Vec Ideal S16x1024 .f32) (ix2 p b) = blockSum (m ((c.tc : Thread nD τ).loc main_arg5)) (m ((c.tc : Thread nD τ).loc main_arg2)) p b := by
  refine (congrFun (W2_arr m ρ c 2) (ix2 p b)).trans ?_
  have hterm : ∀ (k : Fin 25) (u : Fin 4000),
      HMul.hMul (α := EReal) (β := EReal) (γ := EReal) ((U1 m ρ c main_v8 : Vec Ideal S25x16x4000 .f32) (ix3 k p u))
          ((U1 m ρ c main_v0 : Vec Ideal S100000x1024 .f32) (ix2 (Cert.Spec.pos k u) b))
        = HMul.hMul (α := EReal) (β := EReal) (γ := EReal) (((m ((c.tc : Thread nD τ).loc main_arg5)) : Vec Ideal S100000x16 .f32) (ix2 (Cert.Spec.pos k u) p))
          (((m ((c.tc : Thread nD τ).loc main_arg2)) : Vec Ideal S1024x100000 .f32) (ix2 b (Cert.Spec.pos k u))) := fun k u =>
    congrArg₂ (HMul.hMul (α := EReal) (β := EReal) (γ := EReal)) (Cert.KernelIdeal.Host.host0_v8_apply (W0 m ρ c) k p u)
      (Cert.KernelIdeal.Host.host0_v0_apply (W0 m ρ c) (Cert.Spec.pos k u) b)
  refine (Cert.KernelIdeal.Val0.final0_apply (U1 m ρ) c p b).trans ?_
  simp only [hterm]
  rfl

/-- The result at trip b and item n is the specification's entry. -/
theorem result_apply (c : Dev nD) (b : Fin 1024) (n : Fin 1000) :
    (W5 m ρ c (Proc.devRef .tc main_v12) : Vec Ideal S1024x1000 .f32) (ix2 b n) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 b n) := by
  refine (Cert.KernelIdeal.Host.host2_v12_apply (W4 m ρ c) b n).trans ?_
  refine (congrFun (W4_arr m ρ c 6) (ix2 n b)).trans ?_
  refine (Cert.KernelIdeal.Val1.final1_apply (U3 m ρ) c n b).trans ?_
  refine (Cert.KernelIdeal.Val1.g1_apply _ _ _ _ _ _ n b).trans ?_
  have e10 : U3 m ρ c main_v10 (ix2 n b) = (((m ((c.tc : Thread nD τ).loc main_arg3)) : Vec Ideal S1024x1000 .i1) (ix2 b n)).setWidth 32 :=
    (Cert.KernelIdeal.Host.host1_v10_apply (W2 m ρ c) n b).trans
      (congrArg (fun v : BitVec 1 => v.setWidth 32) ((congrFun (W2_of_ne m ρ c main_v3 (by decide)) (ix2 n b)).trans
        (Cert.KernelIdeal.Host.host0_v3_apply (W0 m ρ c) n b)))
  have e1 : ∀ p : Fin 16, U3 m ρ c main_v1 (ix3 n p b) = ((m ((c.tc : Thread nD τ).loc main_arg0)) : Vec Ideal S1024x1000x16 .f32) (ix3 b n p) := fun p =>
    (congrFun (Cert.KernelIdeal.Host.host1_of (W2 m ρ c) main_v1 (by decide)) (ix3 n p b)).trans
      ((congrFun (W2_of_ne m ρ c main_v1 (by decide)) (ix3 n p b)).trans (Cert.KernelIdeal.Host.host0_v1_apply (W0 m ρ c) n p b))
  have e2 : ∀ p : Fin 16, U3 m ρ c main_v2 (ix3 n p b) = ((m ((c.tc : Thread nD τ).loc main_arg1)) : Vec Ideal S1024x1000x16 .f32) (ix3 b n p) := fun p =>
    (congrFun (Cert.KernelIdeal.Host.host1_of (W2 m ρ c) main_v2 (by decide)) (ix3 n p b)).trans
      ((congrFun (W2_of_ne m ρ c main_v2 (by decide)) (ix3 n p b)).trans (Cert.KernelIdeal.Host.host0_v2_apply (W0 m ρ c) n p b))
  have e4 : ∀ p : Fin 16, U3 m ρ c main_v4 (ix3 n p 0) = ((m ((c.tc : Thread nD τ).loc main_arg4)) : Vec Ideal S1000x16 .f32) (ix2 n p) := fun p =>
    (congrFun (Cert.KernelIdeal.Host.host1_of (W2 m ρ c) main_v4 (by decide)) (ix3 n p 0)).trans
      ((congrFun (W2_of_ne m ρ c main_v4 (by decide)) (ix3 n p 0)).trans (Cert.KernelIdeal.Host.host0_v4_apply (W0 m ρ c) n p))
  have e5 : U3 m ρ c main_v5 (ix3 n 0 0) = ((m ((c.tc : Thread nD τ).loc main_arg6)) : Vec Ideal S1000x1 .f32) (ix2 n 0) :=
    (congrFun (Cert.KernelIdeal.Host.host1_of (W2 m ρ c) main_v5 (by decide)) (ix3 n 0 0)).trans
      ((congrFun (W2_of_ne m ρ c main_v5 (by decide)) (ix3 n 0 0)).trans (Cert.KernelIdeal.Host.host0_v5_apply (W0 m ρ c) n))
  have e9 : ∀ p : Fin 16, U3 m ρ c main_v9 (ix2 p b) = (W2 m ρ c (Proc.devRef .tc main_v9) : Vec Ideal S16x1024 .f32) (ix2 p b) := fun p =>
    congrFun (Cert.KernelIdeal.Host.host1_of (W2 m ρ c) main_v9 (by decide)) (ix2 p b)
  rw [e10, e5]
  simp only [e1, e2, e4, e9]
  exact Cert.Bridge.kernel_form (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (fun p b => (W2 m ρ c (Proc.devRef .tc main_v9) : Vec Ideal S16x1024 .f32) (ix2 p b)) (fun p b => coef_eq m ρ c p b) b n

/-- The result array is the specification's table. -/
theorem result_eq (c : Dev nD) : W5 m ρ c (Proc.devRef .tc main_v12) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  obtain ⟨b, n, rfl⟩ : ∃ (b : Fin 1024) (n : Fin 1000), j = ix2 b n := ⟨j 0, j 1, eq_ix2 j⟩
  exact result_apply m ρ c b n

/-- The kernel's program runs, ends with its result at the specification's table and its arguments unchanged. -/
theorem kernel_run : θ_run defs (onTc (τ := τ) (main (F := Ideal))) ⟨m, fun _ => 0, ρ⟩ (fun r => ∀ c : Dev nD,
      r.2.mem ((c.tc : Thread nD τ).loc main_v12) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v12 (by decide))).trans (result_eq m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c)⟩) (run_all m ρ)

end Cert.Assemble

namespace Cert.Proof.Claims

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's table of arguments on which the two memories agree. -/
theorem algebraic : Cert.algebraic_KernelIdeal_ReferenceIdeal := by
  intro m ρ m' ρ' _ hagree
  refine ⟨_, Cert.Assemble.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v18_eq, Cert.RefSide.ref_eq, h0, h1, h2, h3, h4, h5, h6]

end Cert.Proof.Claims

end
-- ==== Proof.lean ====
/-
  The certificate.  The kernel's program is two pallas_calls among host lines: the first accumulates, over 25 blocks
  of 4000 users, the product of the user coefficients with the one-hot table; the second computes, per block of 40
  items, the masked utilities.  Each program's frame is the run of its five stretches (Proof/K/Main.lean,
  Proof/KI/Main.lean); the ideal pass rewrote nothing; and on the extended reals the kernel's table and the
  reference's are the specification's table (Proof/Assemble.lean), by the commutative-monoid laws alone.
-/
import proofs.«105989_g88974542504030_cont_9to1c4b_294_19_alg».proof.Defs
import proofs.«105989_g88974542504030_cont_9to1c4b_294_19_alg».proof.Proof.Assemble
import proofs.«105989_g88974542504030_cont_9to1c4b_294_19_alg».proof.Proof.Gen.Kernel
import proofs.«105989_g88974542504030_cont_9to1c4b_294_19_alg».proof.Proof.Gen.KernelIdeal
import proofs.«105989_g88974542504030_cont_9to1c4b_294_19_alg».proof.Proof.Gen.ReferenceIdeal
import proofs.«105989_g88974542504030_cont_9to1c4b_294_19_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
